-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x256 .f32) (main_arg1 : FVec F S256x256 .f32) (main_arg2 : FVec F S256x256 .f32) (main_arg3 : FVec F S256x256 .f32) (main_arg4 : FVec F S256x256 .f32) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x256 : Shape := ⟨2, ![4096, 256]⟩
abbrev S256x256 : Shape := ⟨2, ![256, 256]⟩
abbrev S256 : Shape := ⟨1, ![256]⟩
abbrev S768x256 : Shape := ⟨2, ![768, 256]⟩
abbrev S256x768 : Shape := ⟨2, ![256, 768]⟩
abbrev S4096x768 : Shape := ⟨2, ![4096, 768]⟩
abbrev S1024x256 : Shape := ⟨2, ![1024, 256]⟩
abbrev S1024x768 : Shape := ⟨2, ![1024, 768]⟩
abbrev S4096x8x32 : Shape := ⟨3, ![4096, 8, 32]⟩
abbrev S8x4096x32 : Shape := ⟨3, ![8, 4096, 32]⟩
abbrev S8x512x32 : Shape := ⟨3, ![8, 512, 32]⟩
abbrev S8x256x32 : Shape := ⟨3, ![8, 256, 32]⟩
abbrev S8x512x256 : Shape := ⟨3, ![8, 512, 256]⟩
abbrev S1x256 : Shape := ⟨2, ![1, 256]⟩

abbrev nBuf : Space → Nat
  | .hbm => 26
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S768x256, .f32⟩
  | .hbm, ⟨7, _⟩ => ⟨S256x768, .f32⟩
  | .hbm, ⟨8, _⟩ => ⟨S256x768, .bf16⟩
  | .hbm, ⟨9, _⟩ => ⟨S4096x768, .bf16⟩
  | .hbm, ⟨10, _⟩ => ⟨S4096x256, .bf16⟩
  | .hbm, ⟨11, _⟩ => ⟨S4096x256, .bf16⟩
  | .hbm, ⟨12, _⟩ => ⟨S4096x256, .bf16⟩
  | .hbm, ⟨13, _⟩ => ⟨S4096x8x32, .bf16⟩
  | .hbm, ⟨14, _⟩ => ⟨S8x4096x32, .bf16⟩
  | .hbm, ⟨15, _⟩ => ⟨S4096x8x32, .bf16⟩
  | .hbm, ⟨16, _⟩ => ⟨S8x4096x32, .bf16⟩
  | .hbm, ⟨17, _⟩ => ⟨S4096x8x32, .bf16⟩
  | .hbm, ⟨18, _⟩ => ⟨S8x4096x32, .bf16⟩
  | .hbm, ⟨19, _⟩ => ⟨S8x4096x32, .bf16⟩
  | .hbm, ⟨20, _⟩ => ⟨S4096x8x32, .bf16⟩
  | .hbm, ⟨21, _⟩ => ⟨S4096x256, .bf16⟩
  | .hbm, ⟨22, _⟩ => ⟨S256x256, .f32⟩
  | .hbm, ⟨23, _⟩ => ⟨S256x256, .bf16⟩
  | .hbm, ⟨24, _⟩ => ⟨S1x256, .f32⟩
  | .hbm, ⟨25, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S256x768, .bf16⟩
  | .local _ .vmem, ⟨3, _⟩ => ⟨S1024x768, .bf16⟩
  | .local _ .vmem, ⟨4, _⟩ => ⟨S1024x768, .bf16⟩
  | .local _ .vmem, ⟨5, _⟩ => ⟨S8x512x32, .bf16⟩
  | .local _ .vmem, ⟨6, _⟩ => ⟨S8x512x32, .bf16⟩
  | .local _ .vmem, ⟨7, _⟩ => ⟨S8x4096x32, .bf16⟩
  | .local _ .vmem, ⟨8, _⟩ => ⟨S8x4096x32, .bf16⟩
  | .local _ .vmem, ⟨9, _⟩ => ⟨S8x512x32, .bf16⟩
  | .local _ .vmem, ⟨10, _⟩ => ⟨S8x512x32, .bf16⟩
  | .local _ .vmem, ⟨11, _⟩ => ⟨S8x512x32, .f32⟩
  | .local _ .vmem, ⟨12, _⟩ => ⟨S1024x256, .bf16⟩
  | .local _ .vmem, ⟨13, _⟩ => ⟨S1024x256, .bf16⟩
  | .local _ .vmem, ⟨14, _⟩ => ⟨S256x256, .bf16⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_mult1 : BitVec 32 :=
  let c0_i32 : BitVec 32 := 0#32
  let c256_i32 : BitVec 32 := 256#32
  let v6 : BitVec 32 := Scalar.muli c0_i32 c256_i32
  v6
def k1_off1 (c0_i32 : BitVec 32) : Fin 3 → Nat :=
  let c0_5 : Index := 0#32
  let c256_i32 : BitVec 32 := 256#32
  let v6 : BitVec 32 := Scalar.muli c0_i32 c256_i32
  let v7 : BitVec 32 := v6
  let v8 : Index := Scalar.indexCast v7
  let c0_6 : Index := 0#32
  ![0, v8.toNat, 0]
def k1_mult2 : BitVec 32 :=
  let c1_i32 : BitVec 32 := 1#32
  let c256_i32_17 : BitVec 32 := 256#32
  let v23 : BitVec 32 := Scalar.muli c1_i32 c256_i32_17
  v23
def k1_mult3 : BitVec 32 :=
  let c2_i32 : BitVec 32 := 2#32
  let c256_i32_30 : BitVec 32 := 256#32
  let v40 : BitVec 32 := Scalar.muli c2_i32 c256_i32_30
  v40
def k1_mult4 : BitVec 32 :=
  let c3_i32 : BitVec 32 := 3#32
  let c256_i32_43 : BitVec 32 := 256#32
  let v57 : BitVec 32 := Scalar.muli c3_i32 c256_i32_43
  v57
def k1_mult5 : BitVec 32 :=
  let c4_i32 : BitVec 32 := 4#32
  let c256_i32_56 : BitVec 32 := 256#32
  let v74 : BitVec 32 := Scalar.muli c4_i32 c256_i32_56
  v74
def k1_mult6 : BitVec 32 :=
  let c5_i32 : BitVec 32 := 5#32
  let c256_i32_69 : BitVec 32 := 256#32
  let v91 : BitVec 32 := Scalar.muli c5_i32 c256_i32_69
  v91
def k1_mult7 : BitVec 32 :=
  let c6_i32 : BitVec 32 := 6#32
  let c256_i32_82 : BitVec 32 := 256#32
  let v108 : BitVec 32 := Scalar.muli c6_i32 c256_i32_82
  v108
def k1_mult8 : BitVec 32 :=
  let c7_i32 : BitVec 32 := 7#32
  let c256_i32_95 : BitVec 32 := 256#32
  let v125 : BitVec 32 := Scalar.muli c7_i32 c256_i32_95
  v125
def k1_mult9 : BitVec 32 :=
  let c8_i32 : BitVec 32 := 8#32
  let c256_i32_108 : BitVec 32 := 256#32
  let v142 : BitVec 32 := Scalar.muli c8_i32 c256_i32_108
  v142
def k1_mult10 : BitVec 32 :=
  let c9_i32 : BitVec 32 := 9#32
  let c256_i32_121 : BitVec 32 := 256#32
  let v159 : BitVec 32 := Scalar.muli c9_i32 c256_i32_121
  v159
def k1_mult11 : BitVec 32 :=
  let c10_i32 : BitVec 32 := 10#32
  let c256_i32_134 : BitVec 32 := 256#32
  let v176 : BitVec 32 := Scalar.muli c10_i32 c256_i32_134
  v176
def k1_mult12 : BitVec 32 :=
  let c11_i32 : BitVec 32 := 11#32
  let c256_i32_147 : BitVec 32 := 256#32
  let v193 : BitVec 32 := Scalar.muli c11_i32 c256_i32_147
  v193
def k1_mult13 : BitVec 32 :=
  let c12_i32 : BitVec 32 := 12#32
  let c256_i32_160 : BitVec 32 := 256#32
  let v210 : BitVec 32 := Scalar.muli c12_i32 c256_i32_160
  v210
def k1_mult14 : BitVec 32 :=
  let c13_i32 : BitVec 32 := 13#32
  let c256_i32_173 : BitVec 32 := 256#32
  let v227 : BitVec 32 := Scalar.muli c13_i32 c256_i32_173
  v227
def k1_mult15 : BitVec 32 :=
  let c14_i32 : BitVec 32 := 14#32
  let c256_i32_186 : BitVec 32 := 256#32
  let v244 : BitVec 32 := Scalar.muli c14_i32 c256_i32_186
  v244
def k1_mult16 : BitVec 32 :=
  let c15_i32 : BitVec 32 := 15#32
  let c256_i32_199 : BitVec 32 := 256#32
  let v261 : BitVec 32 := Scalar.muli c15_i32 c256_i32_199
  v261
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x512x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x4096x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x512x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S256x256_S256x256_S256x256_S768x256_d0 : Shape.Concatenates [S256x256, S256x256, S256x256] S768x256 0
  transposes_S768x256_S256x768_1_0 : S768x256.Transposes [1, 0] S256x768
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  shapeCasts_S4096x256_S4096x8x32 : S4096x256.ShapeCasts S4096x8x32
  transposes_S4096x8x32_S8x4096x32_1_0_2 : S4096x8x32.Transposes [1, 0, 2] S8x4096x32
  inb_S8x512x32_S8x512x32_0_0_0 : ∀ a, (![0, 0, 0] : Fin 3 → Nat) a + S8x512x32.size a ≤ S8x512x32.size a
  h_S8x512x32 : 0 < S8x512x32.numel
  shapeCasts_S8x512x32_S8x512x32 : S8x512x32.ShapeCasts S8x512x32
  h_S8x256x32 : 0 < S8x256x32.numel
  shapeCasts_S8x256x32_S8x256x32 : S8x256x32.ShapeCasts S8x256x32
  packedbf16_S8x512x32_S8x512x32_0_0_0 : (Rect.unit (s := S8x512x32) ![0, 0, 0] S8x512x32.size inb_S8x512x32_S8x512x32_0_0_0).PackedRows (EltTy.packing .bf16)
  transposes_S8x4096x32_S4096x8x32_1_0_2 : S8x4096x32.Transposes [1, 0, 2] S4096x8x32
  shapeCasts_S4096x8x32_S4096x256 : S4096x8x32.ShapeCasts S4096x256
  transposes_S256x256_S256x256_1_0 : S256x256.Transposes [1, 0] S256x256
  shapeCasts_S256_S1x256 : S256.ShapeCasts S1x256
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x768_S1024x768_1_0_0_1_n_n_wf : DotDims.WF S1024x256 S256x768 S1024x768 [1] [0] [0] [1] [] []
  dot_S8x512x32_S8x256x32_S8x512x256_2_2_1_1_0_0_wf : DotDims.WF S8x512x32 S8x256x32 S8x512x256 [2] [2] [1] [1] [0] [0]
  dot_S8x512x256_S8x256x32_S8x512x32_2_1_1_2_0_0_wf : DotDims.WF S8x512x256 S8x256x32 S8x512x32 [2] [1] [1] [2] [0] [0]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S4096x768.size a
  hwx0_2 : ∀ i : grid0.Coords, EltTy.bits .bf16 = 32 ∨ (Rect.block (s := S4096x768) S1024x768.size (cc0_transform_2 i) (hinb0_2 i)).WholeWords (EltTy.packing .bf16)
  hrank1 : 0 < grid1.rank
  k1_mult1_dvd : 256 ∣ k1_mult1.toNat
  k1_off1_inb : ∀ (r : Fin 16), ∀ a, (k1_off1 (BitVec.ofNat 32 r.val)) a + S8x256x32.size a ≤ S8x4096x32.size a
  k1_mult2_dvd : 256 ∣ k1_mult2.toNat
  k1_mult3_dvd : 256 ∣ k1_mult3.toNat
  k1_mult4_dvd : 256 ∣ k1_mult4.toNat
  k1_mult5_dvd : 256 ∣ k1_mult5.toNat
  k1_mult6_dvd : 256 ∣ k1_mult6.toNat
  k1_mult7_dvd : 256 ∣ k1_mult7.toNat
  k1_mult8_dvd : 256 ∣ k1_mult8.toNat
  k1_mult9_dvd : 256 ∣ k1_mult9.toNat
  k1_mult10_dvd : 256 ∣ k1_mult10.toNat
  k1_mult11_dvd : 256 ∣ k1_mult11.toNat
  k1_mult12_dvd : 256 ∣ k1_mult12.toNat
  k1_mult13_dvd : 256 ∣ k1_mult13.toNat
  k1_mult14_dvd : 256 ∣ k1_mult14.toNat
  k1_mult15_dvd : 256 ∣ k1_mult15.toNat
  k1_mult16_dvd : 256 ∣ k1_mult16.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x32.size a ≤ S8x4096x32.size a
  hwx1_0 : ∀ i : grid1.Coords, EltTy.bits .bf16 = 32 ∨ (Rect.block (s := S8x4096x32) S8x512x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x32.size a ≤ S8x4096x32.size a
  hwx1_1 : ∀ i : grid1.Coords, EltTy.bits .bf16 = 32 ∨ (Rect.block (s := S8x4096x32) S8x4096x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x4096x32.size a ≤ S8x4096x32.size a
  hwx1_2 : ∀ i : grid1.Coords, EltTy.bits .bf16 = 32 ∨ (Rect.block (s := S8x4096x32) S8x4096x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512x32.size a ≤ S8x4096x32.size a
  hwx1_3 : ∀ i : grid1.Coords, EltTy.bits .bf16 = 32 ∨ (Rect.block (s := S8x4096x32) S8x512x32.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .bf16 = 32 ∨ (Rect.block (s := S4096x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .f32 = 32 ∨ (Rect.block (s := S4096x256) S1024x256.size (cc2_transform_3 i) (hinb2_3 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S8x512x32_S8x256x32_S8x512x256_2_2_1_1_0_0 : DotDims S8x512x32 S8x256x32 S8x512x256 where
  lhsContracting := [2]
  rhsContracting := [2]
  lhsNonContracting := [1]
  rhsNonContracting := [1]
  lhsBatch := [0]
  rhsBatch := [0]
  wf := dot_S8x512x32_S8x256x32_S8x512x256_2_2_1_1_0_0_wf
def dot_S8x512x256_S8x256x32_S8x512x32_2_1_1_2_0_0 : DotDims S8x512x256 S8x256x32 S8x512x32 where
  lhsContracting := [2]
  rhsContracting := [1]
  lhsNonContracting := [1]
  rhsNonContracting := [2]
  lhsBatch := [0]
  rhsBatch := [0]
  wf := dot_S8x512x256_S8x256x32_S8x512x32_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S8x512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8x4096x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8x4096x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8x512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S4096x8x32 : Shape := ⟨3, ![4096, 8, 32]⟩
abbrev S8x4096x32 : Shape := ⟨3, ![8, 4096, 32]⟩
abbrev S8x4096x4096 : Shape := ⟨3, ![8, 4096, 4096]⟩
abbrev S1x256 : Shape := ⟨2, ![1, 256]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S4096x256, .f32⟩
  | .hbm, ⟨8, _⟩ => ⟨S4096x8x32, .f32⟩
  | .hbm, ⟨9, _⟩ => ⟨S8x4096x32, .f32⟩
  | .hbm, ⟨10, _⟩ => ⟨S256x256, .f32⟩
  | .hbm, ⟨11, _⟩ => ⟨S4096x256, .f32⟩
  | .hbm, ⟨12, _⟩ => ⟨S4096x8x32, .f32⟩
  | .hbm, ⟨13, _⟩ => ⟨S8x4096x32, .f32⟩
  | .hbm, ⟨14, _⟩ => ⟨S256x256, .f32⟩
  | .hbm, ⟨15, _⟩ => ⟨S4096x256, .f32⟩
  | .hbm, ⟨16, _⟩ => ⟨S4096x8x32, .f32⟩
  | .hbm, ⟨17, _⟩ => ⟨S8x4096x32, .f32⟩
  | .hbm, ⟨18, _⟩ => ⟨S8x4096x4096, .f32⟩
  | .hbm, ⟨19, _⟩ => ⟨S8x4096x4096, .f32⟩
  | .hbm, ⟨20, _⟩ => ⟨S8x4096x32, .f32⟩
  | .hbm, ⟨21, _⟩ => ⟨S4096x8x32, .f32⟩
  | .hbm, ⟨22, _⟩ => ⟨S4096x256, .f32⟩
  | .hbm, ⟨23, _⟩ => ⟨S256x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_cst : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S256x256_S256x256_1_0 : S256x256.Transposes [1, 0] S256x256
  shapeCasts_S4096x256_S4096x8x32 : S4096x256.ShapeCasts S4096x8x32
  transposes_S4096x8x32_S8x4096x32_1_0_2 : S4096x8x32.Transposes [1, 0, 2] S8x4096x32
  transposes_S8x4096x32_S4096x8x32_1_0_2 : S8x4096x32.Transposes [1, 0, 2] S4096x8x32
  shapeCasts_S4096x8x32_S4096x256 : S4096x8x32.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S8x4096x32_S8x4096x32_S8x4096x4096_2_2_1_1_0_0_wf : DotDims.WF S8x4096x32 S8x4096x32 S8x4096x4096 [2] [2] [1] [1] [0] [0]
  dot_S8x4096x4096_S8x4096x32_S8x4096x32_2_1_1_2_0_0_wf : DotDims.WF S8x4096x4096 S8x4096x32 S8x4096x32 [2] [1] [1] [2] [0] [0]

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf
def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf

class Facts : Prop extends Facts₀ where

variable [Facts]
-- ==== Proof.FrameDefs.lean ====
/-
  The three block computations of the program as functions of the blocks they read, and the proof data
  of its three pipelines, each stated at a parameter `V`: the contents of the core's arrays when the
  pipeline is entered.

  Stage 0 (4 blocks of 1024 rows): a block of the product is the product of the block of rows with the
  whole 256×768 weight matrix. Stage 2 (4 blocks of 1024 rows): the same with a bias row and a maximum
  with zero. Stage 1 (8 blocks of 512 query rows, all 8 heads at once): an accumulator starts at zero and
  takes, for each of the 16 stretches of 256 keys in turn, tanh(q · kᵀ) · v of that stretch; `accAfter`
  is the accumulator after the last stretch, written exactly as the sixteen unrolled steps compute it.
-/
import proofs.«130410_j11501922419472_2_alg».proof.Proof.Gen.KernelIdeal.Launch
import proofs.«130410_j11501922419472_2_alg».proof.Proof.Gen.KernelIdeal.Skeleton
import proofs.«130410_j11501922419472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the bodies load and store through -/

abbrev r0_0 : Rect S1024x256 := Rect.unit (s := S1024x256) ![0, 0] S1024x256.size inb_S1024x256_S1024x256_0_0
abbrev r0_1 : Rect S256x768 := Rect.unit (s := S256x768) ![0, 0] S256x768.size inb_S256x768_S256x768_0_0
abbrev r0_2 : Rect S1024x768 := Rect.unit (s := S1024x768) ![0, 0] S1024x768.size inb_S1024x768_S1024x768_0_0

/-- The whole 8×512×32 block (queries, accumulator, output). -/
abbrev rQ : Rect S8x512x32 := Rect.unit (s := S8x512x32) ![0, 0, 0] S8x512x32.size inb_S8x512x32_S8x512x32_0_0_0
/-- Stretch `j` of 256 keys (or values) of the resident 8×4096×32 array. -/
abbrev rK (j : Fin 16) : Rect S8x4096x32 := Rect.unit (s := S8x4096x32) (k1_off1 (BitVec.ofNat 32 j.val)) S8x256x32.size (k1_off1_inb j)

abbrev r2_0 : Rect S1024x256 := Rect.unit (s := S1024x256) ![0, 0] S1024x256.size inb_S1024x256_S1024x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What each body leaves in its output block, from the blocks it reads -/

/-- Stage 0's output block: its one store. -/
def out0_2 (x0 : Vec F S1024x256 .f32) (x1 : Vec F S256x768 .bf16) : Vec F S1024x768 .bf16 :=
  View.canon [⟨r0_2, k0_pay1 (View.ld x0 r0_0) (View.ld x1 r0_1)⟩]

/-- Stage 2's output block: its one store. -/
def out2_3 (x0 : Vec F S1024x256 .bf16) (x1 : Vec F S256x256 .bf16) (x2 : Vec F S1x256 .f32) : Vec F S1024x256 .f32 :=
  View.canon [⟨r2_0, k2_pay1 (View.ld x0 r2_0) (View.ld x1 r2_1) (View.ld x2 r2_2)⟩]

/-- Stage 1's accumulator after all sixteen stretches of keys, from the query block `x0` and the resident
    key and value arrays `x1`, `x2`: each step adds tanh(q · kᵀ) · v of its stretch to the step before,
    the first to zero. -/
def accAfter (x0 : Vec F S8x512x32 .bf16) (x1 x2 : Vec F S8x4096x32 .bf16) : FVec F S8x512x32 .f32 :=
  have q : FVec F S8x512x32 .bf16 := k1_pay3 (View.ld x0 rQ)
  have a1 := k1_pay4 (View.ld x0 rQ) (View.ld x1 (rK 0)) (View.ld x2 (rK 0)) (k1_pay2 (F := F))
  have a2 := k1_pay6 q (k1_pay5 (View.ld x1 (rK 1))) (View.ld x2 (rK 1)) a1
  have a3 := k1_pay7 q (View.ld x1 (rK 2)) (View.ld x2 (rK 2)) a2
  have a4 := k1_pay9 q (k1_pay8 (View.ld x1 (rK 3))) (View.ld x2 (rK 3)) a3
  have a5 := k1_pay10 q (View.ld x1 (rK 4)) (View.ld x2 (rK 4)) a4
  have a6 := k1_pay11 q (View.ld x1 (rK 5)) (View.ld x2 (rK 5)) a5
  have a7 := k1_pay12 q (View.ld x1 (rK 6)) (View.ld x2 (rK 6)) a6
  have a8 := k1_pay13 q (View.ld x1 (rK 7)) (View.ld x2 (rK 7)) a7
  have a9 := k1_pay15 (k1_pay14 q (View.ld x1 (rK 8)) (View.ld x2 (rK 8)) a8)
  have a10 := k1_pay16 q (View.ld x1 (rK 9)) (View.ld x2 (rK 9)) a9
  have a11 := k1_pay18 (k1_pay17 q (View.ld x1 (rK 10)) (View.ld x2 (rK 10)) a10)
  have a12 := k1_pay19 q (View.ld x1 (rK 11)) (View.ld x2 (rK 11)) a11
  have a13 := k1_pay22 (k1_pay20 (View.ld x2 (rK 12))) (k1_pay21 q (View.ld x1 (rK 12))) a12
  have a14 := k1_pay23 q (View.ld x1 (rK 13)) (View.ld x2 (rK 13)) a13
  have a15 := k1_pay26 (k1_pay24 (View.ld x2 (rK 14))) (k1_pay25 q (View.ld x1 (rK 14))) a14
  k1_pay27 q (View.ld x1 (rK 15)) (View.ld x2 (rK 15)) a15

/-- Stage 1's output block: its one store, of the accumulator after the last stretch. -/
def out1_3 (x0 : Vec F S8x512x32 .bf16) (x1 x2 : Vec F S8x4096x32 .bf16) : Vec F S8x512x32 .bf16 :=
  View.canon [⟨rQ, k1_pay1 (accAfter x0 x1 x2)⟩]

section Regions
variable (V : (c : Dev nD) → (b : Ref sig .tc) → Buf (Elt F) ((c : Thread nD τ).loc b))

/-! ## The windows' blocks and the proof data, pipeline by pipeline -/

/-- Pipeline 0's window `w` at point `t`: its block of the array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Pipeline 0's proof data: the arrays as found; after the body each input's buffer holds its block and the
    output's the product block; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Pipeline 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Pipeline 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Regions

end Cert.KernelIdeal.Fr

end
-- ==== Proof.FrameRun.lean ====
/-
  The run of the whole program: its six items in order — a stretch of host operations, then a pipeline, three
  times — chained through the contents of the core's unscoped buffers at every boundary. Those contents are a fold
  from the launch memory: a host stretch applies its operations; a pipeline leaves each of its arrays at what its
  write-backs produced and every other buffer as it was. The run ends with every unscoped buffer at the last
  boundary's contents; no item writes an argument array, so each argument is read back as launched.
  The three body obligations are taken as hypotheses here and supplied where the claims are assembled.
-/
import proofs.«130410_j11501922419472_2_alg».proof.Proof.FrameDefs
import proofs.«130410_j11501922419472_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pipeline 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pipeline 1: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pipeline 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 3) → (pcfgs (F := F) p).Adm := fun p => (cfgs p).toPCfg_adm
/-- Every pipeline's proof data, each at the contents its pipeline is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The pipelines as segments, given their body obligations -/

section Segs
variable (hb0 : ∀ (V : (c : Dev nD) → (b : Ref sig .tc) → Buf (Elt F) ((c : Thread nD τ).loc b)) (c : Dev nD),
    BodyObligation (dat0 (F := F) V c) (defs₀ (F := F)) Variants.none () Set.univ)
variable (hb1 : ∀ (V : (c : Dev nD) → (b : Ref sig .tc) → Buf (Elt F) ((c : Thread nD τ).loc b)) (c : Dev nD),
    BodyObligation (dat1 (F := F) V c) (defs₀ (F := F)) Variants.none () Set.univ)
variable (hb2 : ∀ (V : (c : Dev nD) → (b : Ref sig .tc) → Buf (Elt F) ((c : Thread nD τ).loc b)) (c : Dev nD),
    BodyObligation (dat2 (F := F) V c) (defs₀ (F := F)) Variants.none () Set.univ)

set_option backward.isDefEq.respectTransparency.types false in
/-- Pipeline 0 as a segment: entered from every unscoped buffer at the contents before it, left at the contents after
    it; its arrays are split out of the unscoped buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: entered from every unscoped buffer at the contents before it, left at the contents after
    it; its arrays are split out of the unscoped buffers at entry and put back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: entered from every unscoped buffer at the contents before it, left at the contents after
    it; its arrays are split out of the unscoped buffers at entry and put back at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six items in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2) ]
theorem main_run (c : Dev nD) : main (F := F) c = Pipeline.Seg.run (segs m ρ hb0 hb1 hb2) := (main_chain c).trans (by chain_rfl)

include hb0 hb1 hb2 in
set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Segs

end Cert.KernelIdeal.Fr

end
-- ==== Proof.FrameR0.lean ====
/-
  Stage 0 (the projection x · W on 4 blocks of 1024 rows), the block computation's half: at every grid point
  each input window's staging buffer holds that window's block of its array; the body, run on whole staging
  buffers holding a block of rows and the whole weight matrix, leaves them in place and leaves in the output
  buffer the one value it stores there; and so the pipeline's body obligation holds at every point.
-/
import proofs.«130410_j11501922419472_2_alg».proof.Proof.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' staging buffers hold their blocks -/

/-- The block of rows: whatever proof data has the array as found and leaves the block in place holds that
    block in the current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: its block is the whole matrix at every point, brought in once and never moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output buffer -/

theorem cover0_2 (p0 : Vec F S1024x768 .bf16) (y : S1024x768.Idx) :
    ∃ pc ∈ ([⟨r0_2, p0⟩] : List (View.Piece (Elt F) S1024x768 .bf16)), y ∈ pc.1.set :=
  View.cover_of_tiled [⟨r0_2, p0⟩] S1024x768.size (by rfl) y

/-! ## The body's triple -/

set_option maxHeartbeats 1000000 in
/-- The body on whole staging buffers, the inputs' holding `x0` and `x1` and the output's anything, runs to
    the continuation with the inputs' as they were and the output's holding the product block. -/
theorem sound_kernel0 (c : Dev nD) (E : Set ℕ) (i : grid0.Coords) (arg1 : Memref sig .tc .vmem S1024x256 .f32) (harg1 : arg1.IsWhole) (arg2 : Memref sig .tc .vmem S256x768 .bf16) (harg2 : arg2.IsWhole) (arg3 : Memref sig .tc .vmem S1024x768 .bf16) (harg3 : arg3.IsWhole)
    (x0 : Vec F S1024x256 .f32) (x1 : Vec F S256x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.FrameR1Run.lean ====
/-
  Stage 1's block computation as a triple about its program: on whole staging buffers — the query block, the
  resident keys and values at given contents, the output block and the accumulator at anything — the body runs to
  the inputs as they were, the output block at `out1_3` of the inputs, and the accumulator at whatever it last held.

  The accumulator is a buffer of its own that every step reads whole and writes whole. A whole read after a whole
  write returns what was written, whatever was written before it; so the seventeen writes (the zero fill, then one
  per stretch of 256 keys) chain into the nest `accAfter`: each step's payload takes the previous step's payload
  where the program reads the accumulator back. The one store into the output block covers it, so the block ends
  at that store's payload: the accumulator after the last stretch, rounded to the output's element type.
-/
import proofs.«130410_j11501922419472_2_alg».proof.Proof.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the output block covers it. -/
theorem cover1_3 (p0 : Vec F S8x512x32 .bf16) (y : S8x512x32.Idx) :
    ∃ pc ∈ ([⟨rQ, p0⟩] : List (View.Piece (Elt F) S8x512x32 .bf16)), y ∈ pc.1.set :=
  View.cover_of_tiled [⟨rQ, p0⟩] S8x512x32.size (by rfl) y

set_option maxHeartbeats 4000000 in
/-- The body on whole staging memrefs: the inputs at contents `x0`, `x1`, `x2`, the output block and the
    accumulator at anything, runs to the continuation holding the inputs as they were, the output block at
    `out1_3 x0 x1 x2` and the accumulator at some contents. Each read of the accumulator is a whole read after a
    whole write, hence the payload just written (`View.readCov_cons_toLoadRect`), last step first; what remains is
    the nest of the sixteen steps over the zero fill, which is `accAfter` term for term (a load of stretch `j`
    is the contents read at the stretch's rectangle, its offset `256 * j` along the key axis). -/
theorem sound_kernel1 (c : Dev nD) (E : Set ℕ) (i : grid1.Coords) (arg1 : Memref sig .tc .vmem S8x512x32 .bf16) (harg1 : arg1.IsWhole) (arg2 : Memref sig .tc .vmem S8x4096x32 .bf16) (harg2 : arg2.IsWhole) (arg3 : Memref sig .tc .vmem S8x4096x32 .bf16) (harg3 : arg3.IsWhole) (arg4 : Memref sig .tc .vmem S8x512x32 .bf16) (harg4 : arg4.IsWhole) (arg5 : Memref sig .tc .vmem S8x512x32 .f32) (harg5 : arg5.IsWhole)
    (x0 : Vec F S8x512x32 .bf16) (x1 x2 : Vec F S8x4096x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ (∃ d, owns (c : Thread nD τ) arg5 fullShare d)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    unfold out1_3
    refine congrArg (fun a => View.canon [(⟨rQ, k1_pay1 a⟩ : View.Piece (Elt F) S8x512x32 .bf16)]) ?_
    -- the accumulator read back, last step first: each is the payload of the write before it
    rw [show sound_kernel1.sl.v c arg1 arg2 arg3 arg5 f0 f1 f2 = _ from View.readCov_cons_toLoadRect _ _ _ _]
    rw [show sound_kernel1.sl.v272 c arg1 arg2 arg3 arg5 f0 f1 f2 = _ from View.readCov_cons_toLoadRect _ _ _ _]
    rw [show sound_kernel1.sl.v255 c arg1 arg2 arg3 arg5 f0 f1 f2 = _ from View.readCov_cons_toLoadRect _ _ _ _]
    rw [show sound_kernel1.sl.v238 c arg1 arg2 arg3 arg5 f0 f1 f2 = _ from View.readCov_cons_toLoadRect _ _ _ _]
    rw [show sound_kernel1.sl.v221 c arg1 arg2 arg3 arg5 f0 f1 f2 = _ from View.readCov_cons_toLoadRect _ _ _ _]
    rw [show sound_kernel1.sl.v204 c arg1 arg2 arg3 arg5 f0 f1 f2 = _ from View.readCov_cons_toLoadRect _ _ _ _]
    unfold sound_kernel1.sl.r_5
    rw [show sound_kernel1.sl.v187 c arg1 arg2 arg3 arg5 f0 f1 f2 = _ from View.readCov_cons_toLoadRect _ _ _ _]
    rw [show sound_kernel1.sl.v170 c arg1 arg2 arg3 arg5 f0 f1 f2 = _ from View.readCov_cons_toLoadRect _ _ _ _]
    unfold sound_kernel1.sl.r_4
    rw [show sound_kernel1.sl.v153 c arg1 arg2 arg3 arg5 f0 f1 f2 = _ from View.readCov_cons_toLoadRect _ _ _ _]
    rw [show sound_kernel1.sl.v136 c arg1 arg2 arg3 arg5 f0 f1 f2 = _ from View.readCov_cons_toLoadRect _ _ _ _]
    rw [show sound_kernel1.sl.v119 c arg1 arg2 arg3 arg5 f0 f1 f2 = _ from View.readCov_cons_toLoadRect _ _ _ _]
    rw [show sound_kernel1.sl.v102 c arg1 arg2 arg3 arg5 f0 f1 f2 = _ from View.readCov_cons_toLoadRect _ _ _ _]
    rw [show sound_kernel1.sl.v85 c arg1 arg2 arg3 arg5 f0 f1 f2 = _ from View.readCov_cons_toLoadRect _ _ _ _]
    rw [show sound_kernel1.sl.v68 c arg1 arg2 arg3 arg5 f0 f1 f2 = _ from View.readCov_cons_toLoadRect _ _ _ _]
    rw [show sound_kernel1.sl.v51 c arg1 arg2 arg3 arg5 f0 f1 f2 = _ from View.readCov_cons_toLoadRect _ _ _ _]
    rw [show sound_kernel1.sl.v34 c arg1 arg2 arg3 arg5 f0 f1 f2 = _ from View.readCov_cons_toLoadRect _ _ _ _]
    rw [show sound_kernel1.sl.v17 (F := F) c arg5 = _ from View.readCov_cons_toLoadRect _ _ _ _]
    -- the values the steps share: the recast query block, and the stretches recast or multiplied ahead of their step
    unfold sound_kernel1.sl.r_1 sound_kernel1.sl.r_2 sound_kernel1.sl.r_3 sound_kernel1.sl.r_6 sound_kernel1.sl.r_7 sound_kernel1.sl.r_8 sound_kernel1.sl.r_9
    unfold sound_kernel1.sl.r
    rfl
  iexists _, _; isplitr
  swap; · iexact H4
  ipureintro; rfl

end Cert.KernelIdeal.Fr

end
-- ==== Proof.FrameR1.lean ====
/-
  Stage 1's pipeline obligation. At every grid point each input window's buffer holds its block of the array as the
  pipeline found it — the query block of the point, and the whole key and value arrays, whose block is the same at
  every point —, whether the block was fetched at this point or kept from the point before. The body then runs by
  its triple: the region invariant lends it the accumulator's buffer at whatever it holds (the body zeroes it
  before reading it, so nothing is carried from one point to the next) and takes it back at whatever the body
  leaves in it; the rest of the invariant and what the core owes pass through untouched.
-/
import proofs.«130410_j11501922419472_2_alg».proof.Proof.FrameR1Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0 (the query block) holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all keys, the same block at every point) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (all values, the same block at every point) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The region invariant holds the accumulator's buffer -/

/-- The invariant of pipeline 1, conjunct by conjunct: the core's scoped buffers that are no staging buffer of this
    pipeline, each at some contents — the accumulator's among them, written as owning its whole memref —, and
    the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) (Memref.whole cc1_scratch0) fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f))
        ∗ (∃ r, prngReg c r)) := by
  unfold Pipeline.ΦA; rw [scopedRest1_eq]; simp only [owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, the invariant lends the accumulator's buffer at
    whatever it holds (the body zeroes it first) and takes it back at whatever the body leaves in it; the rest of
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  iintro ⟨⟨⟨HA1, HA2, HA3, HA4, HA5, HS, HR⟩, Hg⟩, Ho, ⟨%d0, H0⟩, ⟨%d1, H1⟩, ⟨%d2, H2⟩, ⟨%d3, H3⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HA1 HA2 HA3 HA4 HA5 HS HR Hg]
  · isplitr [Hg]
    · isplitl [HA1]; · iexact HA1
      isplitl [HA2]; · iexact HA2
      isplitl [HA3]; · iexact HA3
      isplitl [HA4]; · iexact HA4
      isplitl [HA5]; · iexact HA5
      isplitl [HS]; · iexact HS
      iexact HR
    · iexact Hg
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.FrameR2.lean ====
/-
  Stage 2 (max(a · w + b, 0) on 4 blocks of 1024 rows), the block computation's half: at every grid point each
  input window's staging buffer holds that window's block of its array; the body, run on whole staging buffers
  holding a block of rows, the whole weight matrix and the bias row, leaves them in place and leaves in the
  output buffer the one value it stores there; and so the pipeline's body obligation holds at every point.
-/
import proofs.«130410_j11501922419472_2_alg».proof.Proof.FrameDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' staging buffers hold their blocks -/

/-- The block of rows: whatever proof data has the array as found and leaves the block in place holds that
    block in the current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: its block is the whole matrix at every point, brought in once and never moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: likewise the whole row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

/-! ## The one store covers the output buffer -/

theorem cover2_3 (p0 : Vec F S1024x256 .f32) (y : S1024x256.Idx) :
    ∃ pc ∈ ([⟨r2_0, p0⟩] : List (View.Piece (Elt F) S1024x256 .f32)), y ∈ pc.1.set :=
  View.cover_of_tiled [⟨r2_0, p0⟩] S1024x256.size (by rfl) y

/-! ## The body's triple -/

set_option maxHeartbeats 1000000 in
/-- The body on whole staging buffers, the inputs' holding `x0`, `x1` and `x2` and the output's anything, runs
    to the continuation with the inputs' as they were and the output's holding max(x0 · x1 + x2, 0). -/
theorem sound_kernel2 (c : Dev nD) (E : Set ℕ) (i : grid2.Coords) (arg1 : Memref sig .tc .vmem S1024x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S1024x256 .f32) (harg4 : arg4.IsWhole)
    (x0 : Vec F S1024x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__ffn_kernel i arg1 harg1 arg2 harg2 arg3 harg3 arg4 harg4) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.FrameDefsK.lean ====
/-
  The three block computations of the program as functions of the blocks they read, and the proof data
  of its three pipelines, each stated at a parameter `V`: the contents of the core's arrays when the
  pipeline is entered.

  Stage 0 (4 blocks of 1024 rows): a block of the product is the product of the block of rows with the
  whole 256×768 weight matrix. Stage 2 (4 blocks of 1024 rows): the same with a bias row and a maximum
  with zero. Stage 1 (8 blocks of 512 query rows, all 8 heads at once): an accumulator starts at zero and
  takes, for each of the 16 stretches of 256 keys in turn, tanh(q · kᵀ) · v of that stretch; `accAfter`
  is the accumulator after the last stretch, written exactly as the sixteen unrolled steps compute it.
-/
import proofs.«130410_j11501922419472_2_alg».proof.Proof.Gen.Kernel.Launch
import proofs.«130410_j11501922419472_2_alg».proof.Proof.Gen.Kernel.Skeleton
import proofs.«130410_j11501922419472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the bodies load and store through -/

abbrev r0_0 : Rect S1024x256 := Rect.unit (s := S1024x256) ![0, 0] S1024x256.size inb_S1024x256_S1024x256_0_0
abbrev r0_1 : Rect S256x768 := Rect.unit (s := S256x768) ![0, 0] S256x768.size inb_S256x768_S256x768_0_0
abbrev r0_2 : Rect S1024x768 := Rect.unit (s := S1024x768) ![0, 0] S1024x768.size inb_S1024x768_S1024x768_0_0

/-- The whole 8×512×32 block (queries, accumulator, output). -/
abbrev rQ : Rect S8x512x32 := Rect.unit (s := S8x512x32) ![0, 0, 0] S8x512x32.size inb_S8x512x32_S8x512x32_0_0_0
/-- Stretch `j` of 256 keys (or values) of the resident 8×4096×32 array. -/
abbrev rK (j : Fin 16) : Rect S8x4096x32 := Rect.unit (s := S8x4096x32) (k1_off1 (BitVec.ofNat 32 j.val)) S8x256x32.size (k1_off1_inb j)

abbrev r2_0 : Rect S1024x256 := Rect.unit (s := S1024x256) ![0, 0] S1024x256.size inb_S1024x256_S1024x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What each body leaves in its output block, from the blocks it reads -/

/-- Stage 0's output block: its one store. -/
def out0_2 (x0 : Vec F S1024x256 .f32) (x1 : Vec F S256x768 .bf16) : Vec F S1024x768 .bf16 :=
  View.canon [⟨r0_2, k0_pay1 (View.ld x0 r0_0) (View.ld x1 r0_1)⟩]

/-- Stage 2's output block: its one store. -/
def out2_3 (x0 : Vec F S1024x256 .bf16) (x1 : Vec F S256x256 .bf16) (x2 : Vec F S1x256 .f32) : Vec F S1024x256 .f32 :=
  View.canon [⟨r2_0, k2_pay1 (View.ld x0 r2_0) (View.ld x1 r2_1) (View.ld x2 r2_2)⟩]

/-- Stage 1's accumulator after all sixteen stretches of keys, from the query block `x0` and the resident
    key and value arrays `x1`, `x2`: each step adds tanh(q · kᵀ) · v of its stretch to the step before,
    the first to zero. -/
def accAfter (x0 : Vec F S8x512x32 .bf16) (x1 x2 : Vec F S8x4096x32 .bf16) : FVec F S8x512x32 .f32 :=
  have q : FVec F S8x512x32 .bf16 := k1_pay3 (View.ld x0 rQ)
  have a1 := k1_pay4 (View.ld x0 rQ) (View.ld x1 (rK 0)) (View.ld x2 (rK 0)) (k1_pay2 (F := F))
  have a2 := k1_pay6 q (k1_pay5 (View.ld x1 (rK 1))) (View.ld x2 (rK 1)) a1
  have a3 := k1_pay7 q (View.ld x1 (rK 2)) (View.ld x2 (rK 2)) a2
  have a4 := k1_pay9 q (k1_pay8 (View.ld x1 (rK 3))) (View.ld x2 (rK 3)) a3
  have a5 := k1_pay10 q (View.ld x1 (rK 4)) (View.ld x2 (rK 4)) a4
  have a6 := k1_pay11 q (View.ld x1 (rK 5)) (View.ld x2 (rK 5)) a5
  have a7 := k1_pay12 q (View.ld x1 (rK 6)) (View.ld x2 (rK 6)) a6
  have a8 := k1_pay13 q (View.ld x1 (rK 7)) (View.ld x2 (rK 7)) a7
  have a9 := k1_pay15 (k1_pay14 q (View.ld x1 (rK 8)) (View.ld x2 (rK 8)) a8)
  have a10 := k1_pay16 q (View.ld x1 (rK 9)) (View.ld x2 (rK 9)) a9
  have a11 := k1_pay18 (k1_pay17 q (View.ld x1 (rK 10)) (View.ld x2 (rK 10)) a10)
  have a12 := k1_pay19 q (View.ld x1 (rK 11)) (View.ld x2 (rK 11)) a11
  have a13 := k1_pay22 (k1_pay20 (View.ld x2 (rK 12))) (k1_pay21 q (View.ld x1 (rK 12))) a12
  have a14 := k1_pay23 q (View.ld x1 (rK 13)) (View.ld x2 (rK 13)) a13
  have a15 := k1_pay26 (k1_pay24 (View.ld x2 (rK 14))) (k1_pay25 q (View.ld x1 (rK 14))) a14
  k1_pay27 q (View.ld x1 (rK 15)) (View.ld x2 (rK 15)) a15

/-- Stage 1's output block: its one store, of the accumulator after the last stretch. -/
def out1_3 (x0 : Vec F S8x512x32 .bf16) (x1 x2 : Vec F S8x4096x32 .bf16) : Vec F S8x512x32 .bf16 :=
  View.canon [⟨rQ, k1_pay1 (accAfter x0 x1 x2)⟩]

section Regions
variable (V : (c : Dev nD) → (b : Ref sig .tc) → Buf (Elt F) ((c : Thread nD τ).loc b))

/-! ## The windows' blocks and the proof data, pipeline by pipeline -/

/-- Pipeline 0's window `w` at point `t`: its block of the array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Pipeline 0's proof data: the arrays as found; after the body each input's buffer holds its block and the
    output's the product block; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Pipeline 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Pipeline 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Regions

end Cert.Kernel.Fr

end
-- ==== Proof.FrameRunK.lean ====
/-
  The run of the whole program: its six items in order — a stretch of host operations, then a pipeline, three
  times — chained through the contents of the core's unscoped buffers at every boundary. Those contents are a fold
  from the launch memory: a host stretch applies its operations; a pipeline leaves each of its arrays at what its
  write-backs produced and every other buffer as it was. The run ends with every unscoped buffer at the last
  boundary's contents; no item writes an argument array, so each argument is read back as launched.
  The three body obligations are taken as hypotheses here and supplied where the claims are assembled.
-/
import proofs.«130410_j11501922419472_2_alg».proof.Proof.FrameDefsK
import proofs.«130410_j11501922419472_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pipeline 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pipeline 1: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pipeline 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 3) → (pcfgs (F := F) p).Adm := fun p => (cfgs p).toPCfg_adm
/-- Every pipeline's proof data, each at the contents its pipeline is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The pipelines as segments, given their body obligations -/

section Segs
variable (hb0 : ∀ (V : (c : Dev nD) → (b : Ref sig .tc) → Buf (Elt F) ((c : Thread nD τ).loc b)) (c : Dev nD),
    BodyObligation (dat0 (F := F) V c) (defs₀ (F := F)) Variants.none () Set.univ)
variable (hb1 : ∀ (V : (c : Dev nD) → (b : Ref sig .tc) → Buf (Elt F) ((c : Thread nD τ).loc b)) (c : Dev nD),
    BodyObligation (dat1 (F := F) V c) (defs₀ (F := F)) Variants.none () Set.univ)
variable (hb2 : ∀ (V : (c : Dev nD) → (b : Ref sig .tc) → Buf (Elt F) ((c : Thread nD τ).loc b)) (c : Dev nD),
    BodyObligation (dat2 (F := F) V c) (defs₀ (F := F)) Variants.none () Set.univ)

set_option backward.isDefEq.respectTransparency.types false in
/-- Pipeline 0 as a segment: entered from every unscoped buffer at the contents before it, left at the contents after
    it; its arrays are split out of the unscoped buffers at entry and put back at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment: entered from every unscoped buffer at the contents before it, left at the contents after
    it; its arrays are split out of the unscoped buffers at entry and put back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 as a segment: entered from every unscoped buffer at the contents before it, left at the contents after
    it; its arrays are split out of the unscoped buffers at entry and put back at exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six items in order. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2) ]
theorem main_run (c : Dev nD) : main (F := F) c = Pipeline.Seg.run (segs m ρ hb0 hb1 hb2) := (main_chain c).trans (by chain_rfl)

include hb0 hb1 hb2 in
set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ hb0 hb1 hb2)
    (fun c Q => by rw [main_run m ρ hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Segs

end Cert.Kernel.Fr

end
-- ==== Proof.FrameR0K.lean ====
/-
  Stage 0 (the projection x · W on 4 blocks of 1024 rows), the block computation's half: at every grid point
  each input window's staging buffer holds that window's block of its array; the body, run on whole staging
  buffers holding a block of rows and the whole weight matrix, leaves them in place and leaves in the output
  buffer the one value it stores there; and so the pipeline's body obligation holds at every point.
-/
import proofs.«130410_j11501922419472_2_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' staging buffers hold their blocks -/

/-- The block of rows: whatever proof data has the array as found and leaves the block in place holds that
    block in the current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: its block is the whole matrix at every point, brought in once and never moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output buffer -/

theorem cover0_2 (p0 : Vec F S1024x768 .bf16) (y : S1024x768.Idx) :
    ∃ pc ∈ ([⟨r0_2, p0⟩] : List (View.Piece (Elt F) S1024x768 .bf16)), y ∈ pc.1.set :=
  View.cover_of_tiled [⟨r0_2, p0⟩] S1024x768.size (by rfl) y

/-! ## The body's triple -/

set_option maxHeartbeats 1000000 in
/-- The body on whole staging buffers, the inputs' holding `x0` and `x1` and the output's anything, runs to
    the continuation with the inputs' as they were and the output's holding the product block. -/
theorem sound_kernel0 (c : Dev nD) (E : Set ℕ) (i : grid0.Coords) (arg1 : Memref sig .tc .vmem S1024x256 .f32) (harg1 : arg1.IsWhole) (arg2 : Memref sig .tc .vmem S256x768 .bf16) (harg2 : arg2.IsWhole) (arg3 : Memref sig .tc .vmem S1024x768 .bf16) (harg3 : arg3.IsWhole)
    (x0 : Vec F S1024x256 .f32) (x1 : Vec F S256x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.FrameR1RunK.lean ====
/-
  Stage 1's block computation as a triple about its program: on whole staging buffers — the query block, the
  resident keys and values at given contents, the output block and the accumulator at anything — the body runs to
  the inputs as they were, the output block at `out1_3` of the inputs, and the accumulator at whatever it last held.

  The accumulator is a buffer of its own that every step reads whole and writes whole. A whole read after a whole
  write returns what was written, whatever was written before it; so the seventeen writes (the zero fill, then one
  per stretch of 256 keys) chain into the nest `accAfter`: each step's payload takes the previous step's payload
  where the program reads the accumulator back. The one store into the output block covers it, so the block ends
  at that store's payload: the accumulator after the last stretch, rounded to the output's element type.
-/
import proofs.«130410_j11501922419472_2_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the output block covers it. -/
theorem cover1_3 (p0 : Vec F S8x512x32 .bf16) (y : S8x512x32.Idx) :
    ∃ pc ∈ ([⟨rQ, p0⟩] : List (View.Piece (Elt F) S8x512x32 .bf16)), y ∈ pc.1.set :=
  View.cover_of_tiled [⟨rQ, p0⟩] S8x512x32.size (by rfl) y

set_option maxHeartbeats 4000000 in
/-- The body on whole staging memrefs: the inputs at contents `x0`, `x1`, `x2`, the output block and the
    accumulator at anything, runs to the continuation holding the inputs as they were, the output block at
    `out1_3 x0 x1 x2` and the accumulator at some contents. Each read of the accumulator is a whole read after a
    whole write, hence the payload just written (`View.readCov_cons_toLoadRect`), last step first; what remains is
    the nest of the sixteen steps over the zero fill, which is `accAfter` term for term (a load of stretch `j`
    is the contents read at the stretch's rectangle, its offset `256 * j` along the key axis). -/
theorem sound_kernel1 (c : Dev nD) (E : Set ℕ) (i : grid1.Coords) (arg1 : Memref sig .tc .vmem S8x512x32 .bf16) (harg1 : arg1.IsWhole) (arg2 : Memref sig .tc .vmem S8x4096x32 .bf16) (harg2 : arg2.IsWhole) (arg3 : Memref sig .tc .vmem S8x4096x32 .bf16) (harg3 : arg3.IsWhole) (arg4 : Memref sig .tc .vmem S8x512x32 .bf16) (harg4 : arg4.IsWhole) (arg5 : Memref sig .tc .vmem S8x512x32 .f32) (harg5 : arg5.IsWhole)
    (x0 : Vec F S8x512x32 .bf16) (x1 x2 : Vec F S8x4096x32 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ (∃ d, owns (c : Thread nD τ) arg5 fullShare d)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    unfold out1_3
    refine congrArg (fun a => View.canon [(⟨rQ, k1_pay1 a⟩ : View.Piece (Elt F) S8x512x32 .bf16)]) ?_
    -- the accumulator read back, last step first: each is the payload of the write before it
    rw [show sound_kernel1.sl.v c arg1 arg2 arg3 arg5 f0 f1 f2 = _ from View.readCov_cons_toLoadRect _ _ _ _]
    rw [show sound_kernel1.sl.v272 c arg1 arg2 arg3 arg5 f0 f1 f2 = _ from View.readCov_cons_toLoadRect _ _ _ _]
    rw [show sound_kernel1.sl.v255 c arg1 arg2 arg3 arg5 f0 f1 f2 = _ from View.readCov_cons_toLoadRect _ _ _ _]
    rw [show sound_kernel1.sl.v238 c arg1 arg2 arg3 arg5 f0 f1 f2 = _ from View.readCov_cons_toLoadRect _ _ _ _]
    rw [show sound_kernel1.sl.v221 c arg1 arg2 arg3 arg5 f0 f1 f2 = _ from View.readCov_cons_toLoadRect _ _ _ _]
    rw [show sound_kernel1.sl.v204 c arg1 arg2 arg3 arg5 f0 f1 f2 = _ from View.readCov_cons_toLoadRect _ _ _ _]
    unfold sound_kernel1.sl.r_5
    rw [show sound_kernel1.sl.v187 c arg1 arg2 arg3 arg5 f0 f1 f2 = _ from View.readCov_cons_toLoadRect _ _ _ _]
    rw [show sound_kernel1.sl.v170 c arg1 arg2 arg3 arg5 f0 f1 f2 = _ from View.readCov_cons_toLoadRect _ _ _ _]
    unfold sound_kernel1.sl.r_4
    rw [show sound_kernel1.sl.v153 c arg1 arg2 arg3 arg5 f0 f1 f2 = _ from View.readCov_cons_toLoadRect _ _ _ _]
    rw [show sound_kernel1.sl.v136 c arg1 arg2 arg3 arg5 f0 f1 f2 = _ from View.readCov_cons_toLoadRect _ _ _ _]
    rw [show sound_kernel1.sl.v119 c arg1 arg2 arg3 arg5 f0 f1 f2 = _ from View.readCov_cons_toLoadRect _ _ _ _]
    rw [show sound_kernel1.sl.v102 c arg1 arg2 arg3 arg5 f0 f1 f2 = _ from View.readCov_cons_toLoadRect _ _ _ _]
    rw [show sound_kernel1.sl.v85 c arg1 arg2 arg3 arg5 f0 f1 f2 = _ from View.readCov_cons_toLoadRect _ _ _ _]
    rw [show sound_kernel1.sl.v68 c arg1 arg2 arg3 arg5 f0 f1 f2 = _ from View.readCov_cons_toLoadRect _ _ _ _]
    rw [show sound_kernel1.sl.v51 c arg1 arg2 arg3 arg5 f0 f1 f2 = _ from View.readCov_cons_toLoadRect _ _ _ _]
    rw [show sound_kernel1.sl.v34 c arg1 arg2 arg3 arg5 f0 f1 f2 = _ from View.readCov_cons_toLoadRect _ _ _ _]
    rw [show sound_kernel1.sl.v17 (F := F) c arg5 = _ from View.readCov_cons_toLoadRect _ _ _ _]
    -- the values the steps share: the recast query block, and the stretches recast or multiplied ahead of their step
    unfold sound_kernel1.sl.r_1 sound_kernel1.sl.r_2 sound_kernel1.sl.r_3 sound_kernel1.sl.r_6 sound_kernel1.sl.r_7 sound_kernel1.sl.r_8 sound_kernel1.sl.r_9
    unfold sound_kernel1.sl.r
    rfl
  iexists _, _; isplitr
  swap; · iexact H4
  ipureintro; rfl

end Cert.Kernel.Fr

end
-- ==== Proof.FrameR1K.lean ====
/-
  Stage 1's pipeline obligation. At every grid point each input window's buffer holds its block of the array as the
  pipeline found it — the query block of the point, and the whole key and value arrays, whose block is the same at
  every point —, whether the block was fetched at this point or kept from the point before. The body then runs by
  its triple: the region invariant lends it the accumulator's buffer at whatever it holds (the body zeroes it
  before reading it, so nothing is carried from one point to the next) and takes it back at whatever the body
  leaves in it; the rest of the invariant and what the core owes pass through untouched.
-/
import proofs.«130410_j11501922419472_2_alg».proof.Proof.FrameR1RunK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0 (the query block) holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all keys, the same block at every point) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (all values, the same block at every point) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The region invariant holds the accumulator's buffer -/

/-- The invariant of pipeline 1, conjunct by conjunct: the core's scoped buffers that are no staging buffer of this
    pipeline, each at some contents — the accumulator's among them, written as owning its whole memref —, and
    the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) (Memref.whole cc1_scratch0) fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f))
        ∗ (∃ r, prngReg c r)) := by
  unfold Pipeline.ΦA; rw [scopedRest1_eq]; simp only [owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, the invariant lends the accumulator's buffer at
    whatever it holds (the body zeroes it first) and takes it back at whatever the body leaves in it; the rest of
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  iintro ⟨⟨⟨HA1, HA2, HA3, HA4, HA5, HS, HR⟩, Hg⟩, Ho, ⟨%d0, H0⟩, ⟨%d1, H1⟩, ⟨%d2, H2⟩, ⟨%d3, H3⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HA1 HA2 HA3 HA4 HA5 HS HR Hg]
  · isplitr [Hg]
    · isplitl [HA1]; · iexact HA1
      isplitl [HA2]; · iexact HA2
      isplitl [HA3]; · iexact HA3
      isplitl [HA4]; · iexact HA4
      isplitl [HA5]; · iexact HA5
      isplitl [HS]; · iexact HS
      iexact HR
    · iexact Hg
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.FrameR2K.lean ====
/-
  Stage 2 (max(a · w + b, 0) on 4 blocks of 1024 rows), the block computation's half: at every grid point each
  input window's staging buffer holds that window's block of its array; the body, run on whole staging buffers
  holding a block of rows, the whole weight matrix and the bias row, leaves them in place and leaves in the
  output buffer the one value it stores there; and so the pipeline's body obligation holds at every point.
-/
import proofs.«130410_j11501922419472_2_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' staging buffers hold their blocks -/

/-- The block of rows: whatever proof data has the array as found and leaves the block in place holds that
    block in the current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: its block is the whole matrix at every point, brought in once and never moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: likewise the whole row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

/-! ## The one store covers the output buffer -/

theorem cover2_3 (p0 : Vec F S1024x256 .f32) (y : S1024x256.Idx) :
    ∃ pc ∈ ([⟨r2_0, p0⟩] : List (View.Piece (Elt F) S1024x256 .f32)), y ∈ pc.1.set :=
  View.cover_of_tiled [⟨r2_0, p0⟩] S1024x256.size (by rfl) y

/-! ## The body's triple -/

set_option maxHeartbeats 1000000 in
/-- The body on whole staging buffers, the inputs' holding `x0`, `x1` and `x2` and the output's anything, runs
    to the continuation with the inputs' as they were and the output's holding max(x0 · x1 + x2, 0). -/
theorem sound_kernel2 (c : Dev nD) (E : Set ℕ) (i : grid2.Coords) (arg1 : Memref sig .tc .vmem S1024x256 .bf16) (harg1 : arg1.IsWhole) (arg2 : Memref sig .tc .vmem S256x256 .bf16) (harg2 : arg2.IsWhole) (arg3 : Memref sig .tc .vmem S1x256 .f32) (harg3 : arg3.IsWhole) (arg4 : Memref sig .tc .vmem S1024x256 .f32) (harg4 : arg4.IsWhole)
    (x0 : Vec F S1024x256 .bf16) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__ffn_kernel i arg1 harg1 arg2 harg2 arg3 harg3 arg4 harg4) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.Frames.lean ====
/-
  The three frame claims: each program runs to the end from any memory with zero counters, faults nowhere and
  leaves its six argument arrays as launched. For the two kernel programs (the word-level one and its
  idealization, the same text read at two float instances) this is the run of the six items with the three body
  obligations supplied, each argument read back off the last boundary's contents; for the reference it is its
  run with the result dropped.
-/
import proofs.«130410_j11501922419472_2_alg».proof.Defs
import proofs.«130410_j11501922419472_2_alg».proof.Proof.FrameRun
import proofs.«130410_j11501922419472_2_alg».proof.Proof.FrameR0
import proofs.«130410_j11501922419472_2_alg».proof.Proof.FrameR1
import proofs.«130410_j11501922419472_2_alg».proof.Proof.FrameR2
import proofs.«130410_j11501922419472_2_alg».proof.Proof.FrameRunK
import proofs.«130410_j11501922419472_2_alg».proof.Proof.FrameR0K
import proofs.«130410_j11501922419472_2_alg».proof.Proof.FrameR1K
import proofs.«130410_j11501922419472_2_alg».proof.Proof.FrameR2K
import proofs.«130410_j11501922419472_2_alg».proof.Proof.Gen.ReferenceIdeal.Run
import proofs.«130410_j11501922419472_2_alg».proof.Proof.Gen.Pre_finite_inputs

noncomputable section

open Idealize.ShloMosaic Idealize.ShloMosaic.TcCoe Idealize.SL.Sem

namespace Cert.Proof.Frames

/-- The idealized kernel program's run with the three body obligations in: every unscoped buffer ends at the last
    boundary's contents. -/
theorem run_ki {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      ∀ b ∈ Pipeline.ucRefs Cert.KernelIdeal.τ Cert.KernelIdeal.sig, r.2.mem (((c : Thread Cert.KernelIdeal.nD Cert.KernelIdeal.τ)).1, b) = Cert.KernelIdeal.Fr.W6 m ρ c b) :=
  Cert.KernelIdeal.Fr.run_all (F := F) m ρ (fun V c => Cert.KernelIdeal.Fr.body_obligation0 V c)
    (fun V c => Cert.KernelIdeal.Fr.body_obligation1 V c) (fun V c => Cert.KernelIdeal.Fr.body_obligation2 V c)

/-- The word-level kernel program's run with the three body obligations in: every unscoped buffer ends at the last
    boundary's contents. -/
theorem run_k {F : FTy → Type} [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      ∀ b ∈ Pipeline.ucRefs Cert.Kernel.τ Cert.Kernel.sig, r.2.mem (((c : Thread Cert.Kernel.nD Cert.Kernel.τ)).1, b) = Cert.Kernel.Fr.W6 m ρ c b) :=
  Cert.Kernel.Fr.run_all (F := F) m ρ (fun V c => Cert.Kernel.Fr.body_obligation0 V c)
    (fun V c => Cert.Kernel.Fr.body_obligation1 V c) (fun V c => Cert.Kernel.Fr.body_obligation2 V c)

theorem frame_k : Cert.frame_Kernel := fun m ρ _ => by
  refine (θ_run Cert.Kernel.defs _ _).mono ?_ (run_k (F := Bits) m ρ)
  intro r h c
  exact ⟨(h c _ (Cert.Kernel.Fr.mem_uc Cert.Kernel.main_arg0 (by decide))).trans (Cert.Kernel.Fr.W6_main_arg0 m ρ c),
     (h c _ (Cert.Kernel.Fr.mem_uc Cert.Kernel.main_arg1 (by decide))).trans (Cert.Kernel.Fr.W6_main_arg1 m ρ c),
     (h c _ (Cert.Kernel.Fr.mem_uc Cert.Kernel.main_arg2 (by decide))).trans (Cert.Kernel.Fr.W6_main_arg2 m ρ c),
     (h c _ (Cert.Kernel.Fr.mem_uc Cert.Kernel.main_arg3 (by decide))).trans (Cert.Kernel.Fr.W6_main_arg3 m ρ c),
     (h c _ (Cert.Kernel.Fr.mem_uc Cert.Kernel.main_arg4 (by decide))).trans (Cert.Kernel.Fr.W6_main_arg4 m ρ c),
     (h c _ (Cert.Kernel.Fr.mem_uc Cert.Kernel.main_arg5 (by decide))).trans (Cert.Kernel.Fr.W6_main_arg5 m ρ c)⟩

theorem frame_ki : Cert.frame_KernelIdeal := fun m ρ _ => by
  refine (θ_run Cert.KernelIdeal.defs _ _).mono ?_ (run_ki (F := Ideal) m ρ)
  intro r h c
  exact ⟨(h c _ (Cert.KernelIdeal.Fr.mem_uc Cert.KernelIdeal.main_arg0 (by decide))).trans (Cert.KernelIdeal.Fr.W6_main_arg0 m ρ c),
     (h c _ (Cert.KernelIdeal.Fr.mem_uc Cert.KernelIdeal.main_arg1 (by decide))).trans (Cert.KernelIdeal.Fr.W6_main_arg1 m ρ c),
     (h c _ (Cert.KernelIdeal.Fr.mem_uc Cert.KernelIdeal.main_arg2 (by decide))).trans (Cert.KernelIdeal.Fr.W6_main_arg2 m ρ c),
     (h c _ (Cert.KernelIdeal.Fr.mem_uc Cert.KernelIdeal.main_arg3 (by decide))).trans (Cert.KernelIdeal.Fr.W6_main_arg3 m ρ c),
     (h c _ (Cert.KernelIdeal.Fr.mem_uc Cert.KernelIdeal.main_arg4 (by decide))).trans (Cert.KernelIdeal.Fr.W6_main_arg4 m ρ c),
     (h c _ (Cert.KernelIdeal.Fr.mem_uc Cert.KernelIdeal.main_arg5 (by decide))).trans (Cert.KernelIdeal.Fr.W6_main_arg5 m ρ c)⟩

theorem frame_ri : Cert.frame_ReferenceIdeal := fun m ρ _ => by
  refine (θ_run Cert.ReferenceIdeal.defs _ _).mono ?_ (Cert.ReferenceIdeal.Value.run (F := Ideal) m ρ)
  intro r h c
  exact (h c).2.2

end Cert.Proof.Frames

end
-- ==== Proof.Spec.lean ====
/-
  The mathematics both programs compute, on the extended reals, entry by entry.

  A sequence of 4096 rows of 256 features is projected three times (x ↦ x · Wᵀ), each projection is cut
  into 8 heads of 32 lanes, every head forms the scores tanh(q · k) of all pairs of rows and sums them
  against the values, the heads are laid side by side again, and a last affine map followed by a maximum
  with zero gives the result:

      out(n, j) = max (Σ_k att(k / 32, n, k % 32) · Wf(j, k) + bf(j)) 0
      att(h, n, d) = Σ_m tanh (Σ_e q(h, n, e) · k(h, m, e)) · v(h, m, d)
      q(h, n, d) = Σ_k x(n, k) · Wq(32 h + d, k), and likewise k and v.

  Besides this closed form, the three stages as whole-array functions of the arrays they read
  (`G0`, `G1`, `G2`): what one block computation writes is a block of these.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev A2 (a b : Nat) : Type := (⟨2, ![a, b]⟩ : Shape).Idx → EReal
/-- A rank-3 array of extended reals. -/
abbrev A3 (a b c : Nat) : Type := (⟨3, ![a, b, c]⟩ : Shape).Idx → EReal
/-- A vector of extended reals. -/
abbrev A1 (a : Nat) : Type := (⟨1, ![a]⟩ : Shape).Idx → EReal

/-- Column `32 h + d` of a 256-column matrix: lane `d` of head `h`. -/
def col (h : Fin 8) (d : Fin 32) : Fin 256 := ⟨h.val * 32 + d.val, by omega⟩

/-- Entry (n, j) of x · Wᵀ. -/
def proj (X : A2 4096 256) (W : A2 256 256) (n : Fin 4096) (j : Fin 256) : EReal :=
  ∑ k : Fin 256, X (ix2 n k) * W (ix2 j k)

/-- The score of rows n and m in head h: tanh of the dot product of their projected lanes. -/
def score (X : A2 4096 256) (Wq Wk : A2 256 256) (h : Fin 8) (n m : Fin 4096) : EReal :=
  Ideal.tanh (∑ e : Fin 32, proj X Wq n (col h e) * proj X Wk m (col h e))

/-- Head h's attention output at row n, lane d: the scores of row n summed against the values. -/
def att (X : A2 4096 256) (Wq Wk Wv : A2 256 256) (h : Fin 8) (n : Fin 4096) (d : Fin 32) : EReal :=
  ∑ m : Fin 4096, score X Wq Wk h n m * proj X Wv m (col h d)

/-- The head of column k, and its lane. -/
def headOf (k : Fin 256) : Fin 8 := ⟨k.val / 32, by omega⟩
def laneOf (k : Fin 256) : Fin 32 := ⟨k.val % 32, Nat.mod_lt _ (by decide)⟩

/-- The whole result. -/
def out (X : A2 4096 256) (Wq Wk Wv Wf : A2 256 256) (bf : A1 256) : A2 4096 256 := fun i =>
  max (∑ k : Fin 256, att X Wq Wk Wv (headOf k) (i 0) (laneOf k) * Wf (ix2 (i 1) k) + bf (ix1 (i 1))) 0

/-! ## The three stages as whole-array functions of the arrays they read -/

/-- Stage 0: a plain matrix product x · w, 4096×256 by 256×768. -/
def G0 (X : A2 4096 256) (Wt : A2 256 768) : A2 4096 768 := fun i =>
  ∑ k : Fin 256, X (ix2 (i 0) k) * Wt (ix2 k (i 1))

/-- Stage 1: per head, tanh of q · kᵀ summed against v, all 4096 keys at once. -/
def G1 (Q K V : A3 8 4096 32) : A3 8 4096 32 := fun i =>
  ∑ m : Fin 4096, Ideal.tanh (∑ e : Fin 32, Q (ix3 (i 0) (i 1) e) * K (ix3 (i 0) m e)) * V (ix3 (i 0) m (i 2))

/-- Stage 2: a · w plus a bias row, then the maximum with zero. -/
def G2 (A : A2 4096 256) (Wt : A2 256 256) (b : A2 1 256) : A2 4096 256 := fun i =>
  max (∑ k : Fin 256, A (ix2 (i 0) k) * Wt (ix2 k (i 1)) + b (ix2 0 (i 1))) 0

end Cert.Spec

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.ValR0.lean ====
import proofs.«130410_j11501922419472_2_alg».proof.Proof.FrameDefs
import proofs.«130410_j11501922419472_2_alg».proof.Proof.Spec
import proofs.«130410_j11501922419472_2_alg».proof.Proof.LibMatmulAt
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)
open scoped BigOperators

/-- The zero offsets of a rank-2 rectangle, as the constant function. -/
theorem zeros2 : (![0, 0] : Fin 2 → Nat) = fun _ => 0 := funext fun a => by fin_cases a <;> rfl

/-! ## Stage 0: one block of the product -/

/-- Stage 0's block computation at an entry: row p of the block of rows against column q of the weights,
    one exact sum over the 256 features (the changes of float format are the identity on extended reals). -/
theorem out0_2_apply (x0 : Vec Ideal S1024x256 .f32) (x1 : Vec Ideal S256x768 .bf16) (p : Fin 1024) (q : Fin 768) :
    out0_2 x0 x1 (ix2 p q) = ∑ k : Fin 256, x0 (ix2 p k) * x1 (ix2 k q) := by
  unfold out0_2
  rw [View.canon_unit_zero zeros2]
  simp only [View.ld_unit_zero (S := S1024x256) zeros2, View.ld_unit_zero (S := S256x768) zeros2]
  unfold k0_pay1
  rw [shapeCast_self]
  refine (truncf_apply (φ := .f32) (ψ := .bf16) _ bitsLt_bf16_f32 (ix2 p q)).trans ?_
  refine (Cert.KernelIdeal.Hand.matmul_zero_plain_apply (φ₁ := .bf16) (φ₂ := .bf16) dot_S1024x256_S256x768_S1024x768_1_0_0_1_n_n rfl none (truncf .bf16 x0 bitsLt_bf16_f32) x1 (ix2 p q)).trans ?_
  rfl

/-- If the block of rows holds rows of X starting where row p sits at row r, and the weight block is all of W,
    the block computation at (p, q) is the whole product at (r, q). -/
theorem out0_2_eq_G0 (X : Cert.Spec.A2 4096 256) (W : Cert.Spec.A2 256 768)
    (x0 : Vec Ideal S1024x256 .f32) (x1 : Vec Ideal S256x768 .bf16) (p : Fin 1024) (q : Fin 768) (r : Fin 4096)
    (h0 : ∀ k : Fin 256, x0 (ix2 p k) = X (ix2 r k)) (h1 : ∀ k : Fin 256, x1 (ix2 k q) = W (ix2 k q)) :
    out0_2 x0 x1 (ix2 p q) = Cert.Spec.G0 X W (ix2 r q) := by
  rw [out0_2_apply]
  show _ = ∑ k : Fin 256, X (ix2 r k) * W (ix2 k q)
  exact Finset.sum_congr rfl fun k _ => by rw [h0 k, h1 k]

/-- The printed index maps, decided once over the grid: the row blocks of the input and of the output move with
    the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Regions
variable (V : (c : Dev nD) → (b : Ref sig .tc) → Buf (Elt Ideal) ((c : Thread nD τ).loc b))

/-- The input's block at point t is rows 1024 t … 1024 t + 1023 of the array. -/
theorem iblk0_0_apply (c : Dev nD) (t : Fin cfg0.N) (x : S1024x256.Idx) (k : S4096x256.Idx)
    (hk0 : (k 0).val = t.val * 1024 + (x 0).val) (hk1 : (k 1).val = (x 1).val) :
    (iblk0 V c 0 t : Vec Ideal S1024x256 .f32) x = (V c main_arg0 : S4096x256.Idx → EReal) k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 256 + 1 * (x 1).val = (k 1).val; rw [e1, hk1]; omega

/-- The weights' block at every point is the whole weight matrix. -/
theorem iblk0_1_apply (c : Dev nD) (t : Fin cfg0.N) (x : S256x768.Idx) :
    (iblk0 V c 1 t : Vec Ideal S256x768 .bf16) x = (V c main_v2 : S256x768.Idx → EReal) x := by
  obtain ⟨-, -, e2, e3, -, -⟩ := idx_facts0 t
  unfold iblk0
  rw [View.read_apply]
  show V c main_v2 _ = V c main_v2 _
  congr 1
  funext a
  apply Fin.ext
  match a with
  | ⟨0, _⟩ => show win0_1.index t 0 * 256 + 1 * (x 0).val = (x 0).val; rw [e2]; omega
  | ⟨1, _⟩ => show win0_1.index t 1 * 768 + 1 * (x 1).val = (x 1).val; rw [e3]; omega

/-- What point t writes back is block t of the whole product. -/
theorem flushed0_eq (c : Dev nD) (t : Fin cfg0.N) :
    (dat0 (F := Ideal) V c).flushed 2 t = ((cfg0.win 2).blk t).view.read (Elt Ideal) (Cert.Spec.G0 (V c main_arg0) (V c main_v2)) := by
  show (cfg0.win 2).cut (grid0.coords t) ((dat0 V c).after 2 t) = _
  rw [after0_2]
  funext j
  obtain ⟨-, -, -, -, e4, e5⟩ := idx_facts0 t
  have hj0 : (j 0).val < 1024 := (j 0).isLt
  have hj1 : (j 1).val < 768 := (j 1).isLt
  have hN : grid0.N = 4 := N_0
  have ht : t.val < 4 := hN ▸ t.isLt
  have hr : t.val * 1024 + (j 0).val < 4096 := by omega
  have hl : (cfg0.win 2).xinj (grid0.coords t) j = ix2 (⟨(j 0).val, hj0⟩ : Fin 1024) (⟨(j 1).val, hj1⟩ : Fin 768) := by
    funext a
    match a with
    | ⟨0, _⟩ => rfl
    | ⟨1, _⟩ => rfl
  have hrr : ((cfg0.win 2).blk t).view.emb j = ix2 (⟨t.val * 1024 + (j 0).val, hr⟩ : Fin 4096) (⟨(j 1).val, hj1⟩ : Fin 768) := by
    funext a
    apply Fin.ext
    match a with
    | ⟨0, _⟩ => show win0_2.index t 0 * 1024 + 1 * (j 0).val = t.val * 1024 + (j 0).val; rw [e4]; omega
    | ⟨1, _⟩ => show win0_2.index t 1 * 768 + 1 * (j 1).val = (j 1).val; rw [e5]; omega
  show out0_2 (iblk0 V c 0 t) (iblk0 V c 1 t) ((cfg0.win 2).xinj (grid0.coords t) j)
      = Cert.Spec.G0 (V c main_arg0) (V c main_v2) (((cfg0.win 2).blk t).view.emb j)
  refine (congrArg (out0_2 (iblk0 V c 0 t) (iblk0 V c 1 t)) hl).trans ?_
  refine Eq.trans ?_ (congrArg (Cert.Spec.G0 (V c main_arg0) (V c main_v2)) hrr).symm
  refine out0_2_eq_G0 _ _ _ _ _ _ _ (fun k => ?_) (fun k => ?_)
  · exact iblk0_0_apply V c t _ _ rfl rfl
  · exact iblk0_1_apply V c t _

/-- An index of the product is in point t's block iff each coordinate is in the block's range on its axis. -/
theorem mem_blk0 (t : Fin cfg0.N) (i : S4096x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v3).slice (win0_2.rect t)).set ↔ _
  rw [View.set_slice_whole, Rect.mem_set_unit]
  exact Iff.rfl

/-- Every row r of the product lies in the block of point r / 1024. -/
theorem cover0 (i : S4096x768.Idx) : ∃ t : Fin cfg0.N, (cfg0.win 2).flush t = true ∧ i ∈ ((cfg0.win 2).blk t).view.set := by
  have hi0 : (i 0).val < 4096 := (i 0).isLt
  have hi1 : (i 1).val < 768 := (i 1).isLt
  have hN : grid0.N = 4 := N_0
  refine ⟨⟨(i 0).val / 1024, by show _ < grid0.N; rw [hN]; omega⟩, flush0_2 _, ?_⟩
  rw [mem_blk0]
  obtain ⟨-, -, -, -, e4, e5⟩ := idx_facts0 ⟨(i 0).val / 1024, by show _ < grid0.N; rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 768 ≤ (i 1).val ∧ (i 1).val < win0_2.index _ (1 : Fin 2) * 768 + 768
    rw [e5]; omega

/-- The product array after stage 0's run: the whole matrix product of the arrays the stage was entered with. -/
theorem final0 (c : Dev nD) :
    ((dat0 (F := Ideal) V c).arrAt 2 cfg0.N : S4096x768.Idx → EReal) = Cert.Spec.G0 (V c main_arg0) (V c main_v2) :=
  (dat0 (F := Ideal) V c).arrAt_eq_of_cover 2 (Cert.Spec.G0 (V c main_arg0) (V c main_v2)) (fun t _ => flushed0_eq V c t) cover0

end Regions

end Cert.KernelIdeal.Val

end
-- ==== Proof.LibBlockSum.lean ====
/-
  A sum over 4096 positions taken in four consecutive stretches of 1024: the law that joins a contraction
  accumulated stretch by stretch with the contraction taken whole.  Only commutativity and associativity of
  the sum are used, so it holds in any additive commutative monoid — the extended reals included, with no
  finiteness hypothesis.
-/
import Mathlib.Algebra.BigOperators.Fin
import Mathlib.Algebra.BigOperators.Intervals

namespace Cert.BlockSum

variable {M : Type*} [AddCommMonoid M]

/-- A sum over the first `c * n` naturals is the sum, over the `c` stretches of length `n`, of each stretch's sum. -/
theorem sum_range_blocks (g : ℕ → M) (n : ℕ) :
    ∀ c : ℕ, ∑ k ∈ Finset.range (c * n), g k = ∑ s ∈ Finset.range c, ∑ l ∈ Finset.range n, g (n * s + l)
  | 0 => by simp
  | c + 1 => by
    rw [Nat.succ_mul, Finset.sum_range_add, sum_range_blocks g n c, Finset.sum_range_succ, Nat.mul_comm n c]

/-- The same with both index sets spelt as `Fin`: 4096 positions as four stretches of 1024. -/
theorem sum_fin_4096 (g : ℕ → M) :
    ∑ k : Fin 4096, g k.val = ∑ s ∈ Finset.range 4, ∑ l : Fin 1024, g (1024 * s + l.val) := by
  rw [Fin.sum_univ_eq_sum_range g 4096, show (4096 : ℕ) = 4 * 1024 from rfl, sum_range_blocks g 1024 4]
  refine Finset.sum_congr rfl fun s _ => ?_
  exact (Fin.sum_univ_eq_sum_range (fun l => g (1024 * s + l)) 1024).symm

end Cert.BlockSum
-- ==== Proof.ValR1Trip.lean ====
/-
  One step of the attention accumulator, entry by entry, on the extended reals.

  A step takes the query block q (8 heads × 512 rows × 32 lanes), one stretch of 256 keys kb and of 256
  values vb, and the accumulator acc. It forms the scores q · kbᵀ head by head (a batched product
  contracting the lanes), takes their tanh, and adds the scores times vb (a batched product contracting
  the 256 keys) to acc. Both products go into a zero accumulator, so each is an exact finite sum, and the
  format changes are the identity; hence at head h, row r, lane d the step is

      acc(h, r, d) + Σ_{m < 256} tanh (Σ_{e < 32} q(h, r, e) · kb(h, m, e)) · vb(h, m, d).
-/
import proofs.«130410_j11501922419472_2_alg».proof.Proof.FrameDefs
import proofs.«130410_j11501922419472_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx

/-- The dimension numbers of the score product: batch axis 0, lanes (axis 2) contracted with lanes. -/
abbrev dQK := dot_S8x512x32_S8x256x32_S8x512x256_2_2_1_1_0_0
/-- The dimension numbers of the product with the values: batch axis 0, keys (axis 2) contracted with axis 1. -/
abbrev dPV := dot_S8x512x256_S8x256x32_S8x512x32_2_1_1_2_0_0

/-! ## The operand indices of the two batched products -/

theorem qk_lhs_0 (i : S8x512x256.Idx) (q : dQK.contr.Idx) : (dQK.lhsIdx i q 0).val = (i 0).val := by
  unfold DotDims.lhsIdx
  rw [dif_pos (show (0 : Fin S8x512x32.rank) ∈ dQK.lhsBatch by decide)]
  rfl
theorem qk_lhs_1 (i : S8x512x256.Idx) (q : dQK.contr.Idx) : (dQK.lhsIdx i q 1).val = (i 1).val := by
  unfold DotDims.lhsIdx
  rw [dif_neg (show ¬(1 : Fin S8x512x32.rank) ∈ dQK.lhsBatch by decide), dif_pos (show (1 : Fin S8x512x32.rank) ∈ dQK.lhsNonContracting by decide)]
  rfl
theorem qk_lhs_2 (i : S8x512x256.Idx) (q : dQK.contr.Idx) : (dQK.lhsIdx i q 2).val = (q ⟨0, by decide⟩).val :=
  dQK.lhsIdx_val_of_single rfl i q
theorem qk_rhs_0 (i : S8x512x256.Idx) (q : dQK.contr.Idx) : (dQK.rhsIdx i q 0).val = (i 0).val := by
  unfold DotDims.rhsIdx
  rw [dif_pos (show (0 : Fin S8x256x32.rank) ∈ dQK.rhsBatch by decide)]
  rfl
theorem qk_rhs_1 (i : S8x512x256.Idx) (q : dQK.contr.Idx) : (dQK.rhsIdx i q 1).val = (i 2).val := by
  unfold DotDims.rhsIdx
  rw [dif_neg (show ¬(1 : Fin S8x256x32.rank) ∈ dQK.rhsBatch by decide), dif_pos (show (1 : Fin S8x256x32.rank) ∈ dQK.rhsNonContracting by decide)]
  rfl
theorem qk_rhs_2 (i : S8x512x256.Idx) (q : dQK.contr.Idx) : (dQK.rhsIdx i q 2).val = (q ⟨0, by decide⟩).val :=
  dQK.rhsIdx_val_of_single rfl i q

theorem pv_lhs_0 (i : S8x512x32.Idx) (q : dPV.contr.Idx) : (dPV.lhsIdx i q 0).val = (i 0).val := by
  unfold DotDims.lhsIdx
  rw [dif_pos (show (0 : Fin S8x512x256.rank) ∈ dPV.lhsBatch by decide)]
  rfl
theorem pv_lhs_1 (i : S8x512x32.Idx) (q : dPV.contr.Idx) : (dPV.lhsIdx i q 1).val = (i 1).val := by
  unfold DotDims.lhsIdx
  rw [dif_neg (show ¬(1 : Fin S8x512x256.rank) ∈ dPV.lhsBatch by decide), dif_pos (show (1 : Fin S8x512x256.rank) ∈ dPV.lhsNonContracting by decide)]
  rfl
theorem pv_lhs_2 (i : S8x512x32.Idx) (q : dPV.contr.Idx) : (dPV.lhsIdx i q 2).val = (q ⟨0, by decide⟩).val :=
  dPV.lhsIdx_val_of_single rfl i q
theorem pv_rhs_0 (i : S8x512x32.Idx) (q : dPV.contr.Idx) : (dPV.rhsIdx i q 0).val = (i 0).val := by
  unfold DotDims.rhsIdx
  rw [dif_pos (show (0 : Fin S8x256x32.rank) ∈ dPV.rhsBatch by decide)]
  rfl
theorem pv_rhs_1 (i : S8x512x32.Idx) (q : dPV.contr.Idx) : (dPV.rhsIdx i q 1).val = (q ⟨0, by decide⟩).val :=
  dPV.rhsIdx_val_of_single rfl i q
theorem pv_rhs_2 (i : S8x512x32.Idx) (q : dPV.contr.Idx) : (dPV.rhsIdx i q 2).val = (i 2).val := by
  unfold DotDims.rhsIdx
  rw [dif_neg (show ¬(2 : Fin S8x256x32.rank) ∈ dPV.rhsBatch by decide), dif_pos (show (2 : Fin S8x256x32.rank) ∈ dPV.rhsNonContracting by decide)]
  rfl

/-! ## The two products into the zero accumulator, read at an entry -/

/-- The scores: entry (h, r, m) of q · kbᵀ is the sum over the 32 lanes. -/
theorem scores_apply {φ₁ φ₂ : FTy} (q : FVec Ideal S8x512x32 φ₁) (kb : FVec Ideal S8x256x32 φ₂)
    (h : Fin 8) (r : Fin 512) (m : Fin 256) :
    matmul dQK none q kb (constant S8x512x256 .f32 0x00000000#32) (ix3 h r m)
      = ∑ e : Fin 32, q (ix3 h r e) * kb (ix3 h m e) := by
  show FloatOps.matmul dQK none q kb (constant S8x512x256 .f32 0x00000000#32) (ix3 h r m) = _
  rw [Ideal.matmul_constant_zero_apply, ← Equiv.sum_comp (contrEquiv1 dQK 32 rfl rfl).symm]
  refine Finset.sum_congr rfl fun k _ => ?_
  have hk := contrEquiv1_symm_val dQK 32 rfl rfl k
  have el : dQK.lhsIdx (ix3 h r m) ((contrEquiv1 dQK 32 rfl rfl).symm k) = ix3 h r k := funext fun a => Fin.ext (by
    match a with
    | ⟨0, _⟩ => exact qk_lhs_0 _ _
    | ⟨1, _⟩ => exact qk_lhs_1 _ _
    | ⟨2, _⟩ => exact (qk_lhs_2 _ _).trans hk)
  have er : dQK.rhsIdx (ix3 h r m) ((contrEquiv1 dQK 32 rfl rfl).symm k) = ix3 h m k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-- The product with the values: entry (h, r, d) of p · vb is the sum over the 256 keys. -/
theorem weighted_apply {φ₁ φ₂ : FTy} (p : FVec Ideal S8x512x256 φ₁) (vb : FVec Ideal S8x256x32 φ₂)
    (h : Fin 8) (r : Fin 512) (d : Fin 32) :
    matmul dPV none p vb (constant S8x512x32 .f32 0x00000000#32) (ix3 h r d)
      = ∑ m : Fin 256, p (ix3 h r m) * vb (ix3 h m d) := by
  show FloatOps.matmul dPV none p vb (constant S8x512x32 .f32 0x00000000#32) (ix3 h r d) = _
  rw [Ideal.matmul_constant_zero_apply, ← Equiv.sum_comp (contrEquiv1 dPV 256 rfl rfl).symm]
  refine Finset.sum_congr rfl fun k _ => ?_
  have hk := contrEquiv1_symm_val dPV 256 rfl rfl k
  have el : dPV.lhsIdx (ix3 h r d) ((contrEquiv1 dPV 256 rfl rfl).symm k) = ix3 h r k := funext fun a => Fin.ext (by
    match a with
    | ⟨0, _⟩ => exact pv_lhs_0 _ _
    | ⟨1, _⟩ => exact pv_lhs_1 _ _
    | ⟨2, _⟩ => exact (pv_lhs_2 _ _).trans hk)
  have er : dPV.rhsIdx (ix3 h r d) ((contrEquiv1 dPV 256 rfl rfl).symm k) = ix3 h k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## One step -/

/-- What one step adds at (h, r, d): the tanh of the scores of row r against the stretch, summed against the values. -/
def stepTerm (q : FVec Ideal S8x512x32 .bf16) (kb vb : FVec Ideal S8x256x32 .bf16) (h : Fin 8) (r : Fin 512) (d : Fin 32) : EReal :=
  ∑ m : Fin 256, Ideal.tanh (∑ e : Fin 32, q (ix3 h r e) * kb (ix3 h m e)) * vb (ix3 h m d)

/-- The weights of a step: tanh of the scores, recast (the identity on the extended reals). -/
theorem weights_apply (q : FVec Ideal S8x512x32 .bf16) (kb : FVec Ideal S8x256x32 .bf16) (h : Fin 8) (r : Fin 512) (m : Fin 256) :
    (truncf .bf16 (tanh (matmul dQK none q kb (constant S8x512x256 .f32 0x00000000#32))) bitsLt_bf16_f32 : FVec Ideal S8x512x256 .bf16) (ix3 h r m)
      = Ideal.tanh (∑ e : Fin 32, q (ix3 h r e) * kb (ix3 h m e)) := by
  rw [truncf_apply]
  show Ideal.tanh (matmul dQK none q kb (constant S8x512x256 .f32 0x00000000#32) (ix3 h r m)) = _
  rw [scores_apply]

/-- The step as the operations compute it. -/
theorem step_apply (q : FVec Ideal S8x512x32 .bf16) (kb vb : FVec Ideal S8x256x32 .bf16) (acc : FVec Ideal S8x512x32 .f32)
    (h : Fin 8) (r : Fin 512) (d : Fin 32) :
    addf acc (matmul dPV none
        (truncf .bf16 (tanh (matmul dQK none q kb (constant S8x512x256 .f32 0x00000000#32))) bitsLt_bf16_f32 : FVec Ideal S8x512x256 .bf16)
        vb (constant S8x512x32 .f32 0x00000000#32)) (ix3 h r d)
      = acc (ix3 h r d) + stepTerm q kb vb h r d := by
  rw [addf_apply, weighted_apply]
  unfold stepTerm
  refine congrArg (acc (ix3 h r d) + ·) (Finset.sum_congr rfl fun m _ => ?_)
  rw [weights_apply]

end Cert.KernelIdeal.Val

end
-- ==== Proof.ValR1Pay.lean ====
/-
  Each of the sixteen unrolled steps of the attention accumulator, as the program's text computes it, is the
  one step of the previous module: at (h, r, d) the accumulator there plus tanh of the scores of row r
  against the stretch of keys, summed against the stretch of values. The shape casts in the text are to the
  same shape, so they are the identity; the text of four of the steps is cut into two or three pieces, whose
  composition is the same step. The accumulator's first value is the zero splat.
-/
import proofs.«130410_j11501922419472_2_alg».proof.Proof.FrameDefs
import proofs.«130410_j11501922419472_2_alg».proof.Proof.Spec
import proofs.«130410_j11501922419472_2_alg».proof.Proof.ValR1Trip
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx

/-- The zero splat the accumulator starts from. -/
theorem pay2_apply (h : Fin 8) (r : Fin 512) (d : Fin 32) : k1_pay2 (F := Ideal) (ix3 h r d) = 0 := by
  unfold k1_pay2
  simp only [shapeCast_self]
  show Ideal.ofBits .f32 0x00000000#32 = 0
  exact Ideal.ofBits_zero_f32

/-- The query block's cast to its own shape. -/
theorem pay3_eq (x : Vec Ideal S8x512x32 .bf16) : k1_pay3 (F := Ideal) x = x := by
  unfold k1_pay3
  simp only [shapeCast_self]
theorem pay5_eq (x : Vec Ideal S8x256x32 .bf16) : k1_pay5 (F := Ideal) x = x := by
  unfold k1_pay5
  simp only [shapeCast_self]
theorem pay8_eq (x : Vec Ideal S8x256x32 .bf16) : k1_pay8 (F := Ideal) x = x := by
  unfold k1_pay8
  simp only [shapeCast_self]
theorem pay20_eq (x : Vec Ideal S8x256x32 .bf16) : k1_pay20 (F := Ideal) x = x := by
  unfold k1_pay20
  simp only [shapeCast_self]
theorem pay24_eq (x : Vec Ideal S8x256x32 .bf16) : k1_pay24 (F := Ideal) x = x := by
  unfold k1_pay24
  simp only [shapeCast_self]

/-- The first step, which casts the query block itself. -/
theorem pay4_apply (q : Vec Ideal S8x512x32 .bf16) (kb vb : Vec Ideal S8x256x32 .bf16) (acc : Vec Ideal S8x512x32 .f32)
    (h : Fin 8) (r : Fin 512) (d : Fin 32) :
    k1_pay4 (F := Ideal) q kb vb acc (ix3 h r d) = acc (ix3 h r d) + stepTerm q kb vb h r d := by
  unfold k1_pay4
  simp only [shapeCast_self, pay3_eq]
  exact step_apply q kb vb acc h r d

theorem pay6_apply (q : FVec Ideal S8x512x32 .bf16) (kb vb : FVec Ideal S8x256x32 .bf16) (acc : Vec Ideal S8x512x32 .f32)
    (h : Fin 8) (r : Fin 512) (d : Fin 32) :
    k1_pay6 (F := Ideal) q kb vb acc (ix3 h r d) = acc (ix3 h r d) + stepTerm q kb vb h r d := by
  unfold k1_pay6
  simp only [shapeCast_self]
  exact step_apply q kb vb acc h r d

theorem pay7_apply (q : FVec Ideal S8x512x32 .bf16) (kb vb : FVec Ideal S8x256x32 .bf16) (acc : Vec Ideal S8x512x32 .f32)
    (h : Fin 8) (r : Fin 512) (d : Fin 32) :
    k1_pay7 (F := Ideal) q kb vb acc (ix3 h r d) = acc (ix3 h r d) + stepTerm q kb vb h r d := by
  unfold k1_pay7
  simp only [shapeCast_self]
  exact step_apply q kb vb acc h r d

theorem pay9_apply (q : FVec Ideal S8x512x32 .bf16) (kb vb : FVec Ideal S8x256x32 .bf16) (acc : Vec Ideal S8x512x32 .f32)
    (h : Fin 8) (r : Fin 512) (d : Fin 32) :
    k1_pay9 (F := Ideal) q kb vb acc (ix3 h r d) = acc (ix3 h r d) + stepTerm q kb vb h r d := by
  unfold k1_pay9
  simp only [shapeCast_self]
  exact step_apply q kb vb acc h r d

theorem pay10_apply (q : FVec Ideal S8x512x32 .bf16) (kb vb : FVec Ideal S8x256x32 .bf16) (acc : Vec Ideal S8x512x32 .f32)
    (h : Fin 8) (r : Fin 512) (d : Fin 32) :
    k1_pay10 (F := Ideal) q kb vb acc (ix3 h r d) = acc (ix3 h r d) + stepTerm q kb vb h r d := by
  unfold k1_pay10
  simp only [shapeCast_self]
  exact step_apply q kb vb acc h r d

theorem pay11_apply (q : FVec Ideal S8x512x32 .bf16) (kb vb : FVec Ideal S8x256x32 .bf16) (acc : Vec Ideal S8x512x32 .f32)
    (h : Fin 8) (r : Fin 512) (d : Fin 32) :
    k1_pay11 (F := Ideal) q kb vb acc (ix3 h r d) = acc (ix3 h r d) + stepTerm q kb vb h r d := by
  unfold k1_pay11
  simp only [shapeCast_self]
  exact step_apply q kb vb acc h r d

theorem pay12_apply (q : FVec Ideal S8x512x32 .bf16) (kb vb : FVec Ideal S8x256x32 .bf16) (acc : Vec Ideal S8x512x32 .f32)
    (h : Fin 8) (r : Fin 512) (d : Fin 32) :
    k1_pay12 (F := Ideal) q kb vb acc (ix3 h r d) = acc (ix3 h r d) + stepTerm q kb vb h r d := by
  unfold k1_pay12
  simp only [shapeCast_self]
  exact step_apply q kb vb acc h r d

theorem pay13_apply (q : FVec Ideal S8x512x32 .bf16) (kb vb : FVec Ideal S8x256x32 .bf16) (acc : Vec Ideal S8x512x32 .f32)
    (h : Fin 8) (r : Fin 512) (d : Fin 32) :
    k1_pay13 (F := Ideal) q kb vb acc (ix3 h r d) = acc (ix3 h r d) + stepTerm q kb vb h r d := by
  unfold k1_pay13
  simp only [shapeCast_self]
  exact step_apply q kb vb acc h r d

theorem pay16_apply (q : FVec Ideal S8x512x32 .bf16) (kb vb : FVec Ideal S8x256x32 .bf16) (acc : Vec Ideal S8x512x32 .f32)
    (h : Fin 8) (r : Fin 512) (d : Fin 32) :
    k1_pay16 (F := Ideal) q kb vb acc (ix3 h r d) = acc (ix3 h r d) + stepTerm q kb vb h r d := by
  unfold k1_pay16
  simp only [shapeCast_self]
  exact step_apply q kb vb acc h r d

theorem pay19_apply (q : FVec Ideal S8x512x32 .bf16) (kb vb : FVec Ideal S8x256x32 .bf16) (acc : Vec Ideal S8x512x32 .f32)
    (h : Fin 8) (r : Fin 512) (d : Fin 32) :
    k1_pay19 (F := Ideal) q kb vb acc (ix3 h r d) = acc (ix3 h r d) + stepTerm q kb vb h r d := by
  unfold k1_pay19
  simp only [shapeCast_self]
  exact step_apply q kb vb acc h r d

theorem pay23_apply (q : FVec Ideal S8x512x32 .bf16) (kb vb : FVec Ideal S8x256x32 .bf16) (acc : Vec Ideal S8x512x32 .f32)
    (h : Fin 8) (r : Fin 512) (d : Fin 32) :
    k1_pay23 (F := Ideal) q kb vb acc (ix3 h r d) = acc (ix3 h r d) + stepTerm q kb vb h r d := by
  unfold k1_pay23
  simp only [shapeCast_self]
  exact step_apply q kb vb acc h r d

theorem pay27_apply (q : FVec Ideal S8x512x32 .bf16) (kb vb : FVec Ideal S8x256x32 .bf16) (acc : Vec Ideal S8x512x32 .f32)
    (h : Fin 8) (r : Fin 512) (d : Fin 32) :
    k1_pay27 (F := Ideal) q kb vb acc (ix3 h r d) = acc (ix3 h r d) + stepTerm q kb vb h r d := by
  unfold k1_pay27
  simp only [shapeCast_self]
  exact step_apply q kb vb acc h r d

/-- A step whose text is cut after the sum: the second piece is a cast to the same shape. -/
theorem pay15_14_apply (q : FVec Ideal S8x512x32 .bf16) (kb vb : FVec Ideal S8x256x32 .bf16) (acc : Vec Ideal S8x512x32 .f32)
    (h : Fin 8) (r : Fin 512) (d : Fin 32) :
    k1_pay15 (F := Ideal) (k1_pay14 q kb vb acc) (ix3 h r d) = acc (ix3 h r d) + stepTerm q kb vb h r d := by
  unfold k1_pay15 k1_pay14
  simp only [shapeCast_self]
  exact step_apply q kb vb acc h r d
theorem pay18_17_apply (q : FVec Ideal S8x512x32 .bf16) (kb vb : FVec Ideal S8x256x32 .bf16) (acc : Vec Ideal S8x512x32 .f32)
    (h : Fin 8) (r : Fin 512) (d : Fin 32) :
    k1_pay18 (F := Ideal) (k1_pay17 q kb vb acc) (ix3 h r d) = acc (ix3 h r d) + stepTerm q kb vb h r d := by
  unfold k1_pay18 k1_pay17
  simp only [shapeCast_self]
  exact step_apply q kb vb acc h r d

/-- A step whose text is cut after the weights (the recast tanh of the scores) and the values' cast. -/
theorem pay22_apply (q : FVec Ideal S8x512x32 .bf16) (kb vb : FVec Ideal S8x256x32 .bf16) (acc : Vec Ideal S8x512x32 .f32)
    (h : Fin 8) (r : Fin 512) (d : Fin 32) :
    k1_pay22 (F := Ideal) (k1_pay20 vb) (k1_pay21 q kb) acc (ix3 h r d) = acc (ix3 h r d) + stepTerm q kb vb h r d := by
  unfold k1_pay22 k1_pay21 k1_pay20
  simp only [shapeCast_self]
  exact step_apply q kb vb acc h r d
/-- A step whose text is cut after the tanh of the scores, before their recast. -/
theorem pay26_apply (q : FVec Ideal S8x512x32 .bf16) (kb vb : FVec Ideal S8x256x32 .bf16) (acc : Vec Ideal S8x512x32 .f32)
    (h : Fin 8) (r : Fin 512) (d : Fin 32) :
    k1_pay26 (F := Ideal) (k1_pay24 vb) (k1_pay25 q kb) acc (ix3 h r d) = acc (ix3 h r d) + stepTerm q kb vb h r d := by
  unfold k1_pay26 k1_pay25 k1_pay24
  simp only [shapeCast_self]
  exact step_apply q kb vb acc h r d

end Cert.KernelIdeal.Val

end
-- ==== Proof.ValR1Acc.lean ====
/-
  The attention block's accumulator after its sixteen steps, and the block it stores, entry by entry.

  Stretch j of the resident keys (or values) is rows 256 j .. 256 j + 255 of the array, so step j adds, at
  (h, r, d), the terms of key rows 256 j .. 256 j + 255 of

      Σ_{n < 4096} tanh (Σ_{e < 32} q(h, r, e) · K(h, n, e)) · V(h, n, d).

  The accumulator starts at zero and the sixteen stretches are consecutive and exhaust the 4096 rows, so after
  the last step it holds that whole sum: a sum over 16 · 256 positions is the sum of its 16 consecutive
  stretches' sums (commutative-monoid regrouping only; nothing needs to be finite). The stored block is the
  accumulator recast, which on the extended reals is the accumulator.
-/
import proofs.«130410_j11501922419472_2_alg».proof.Proof.FrameDefs
import proofs.«130410_j11501922419472_2_alg».proof.Proof.Spec
import proofs.«130410_j11501922419472_2_alg».proof.Proof.LibBlockSum
import proofs.«130410_j11501922419472_2_alg».proof.Proof.ValR1Trip
import proofs.«130410_j11501922419472_2_alg».proof.Proof.ValR1Pay
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx

/-! ## A stretch read at an entry -/

/-- Row m of stretch j is row 256 j + m of the array. -/
def rowOf (j : Fin 16) (m : Fin 256) : Fin 4096 := ⟨256 * j.val + m.val, by omega⟩

/-- Stretch j's entry (h, m, e) is the array's entry (h, 256 j + m, e). -/
theorem ld_rK_apply {Val : EltTy → Type} {e' : EltTy} (x : S8x4096x32.Idx → Val e') (j : Fin 16) (h : Fin 8) (m : Fin 256) (e : Fin 32) :
    View.ld (Val := Val) x (rK j) (ix3 h m e) = x (ix3 h (rowOf j m) e) := by
  show x ((rK j).idx (ix3 h m e)) = _
  congr 1
  funext a
  refine Fin.ext ?_
  show (rK j).off a + (rK j).stride a * ((ix3 h m e : S8x256x32.Idx) a).val = _
  rw [Rect.off_unit, Rect.stride_unit, k1_off1_eq j]
  match a with
  | ⟨0, _⟩ => simp
  | ⟨1, _⟩ => simp [rowOf]
  | ⟨2, _⟩ => simp

/-- The query block's load reads the block. -/
theorem ld_rQ {Val : EltTy → Type} {e' : EltTy} (x : S8x512x32.Idx → Val e') : View.ld (Val := Val) x rQ = x :=
  View.ld_unit_zero (funext fun a => by match a with | ⟨0, _⟩ => rfl | ⟨1, _⟩ => rfl | ⟨2, _⟩ => rfl) _ x

/-! ## The term of one key row, and a step as the sum of its stretch's terms -/

/-- The term of key row n at (h, r, d). -/
def keyTerm (q : Vec Ideal S8x512x32 .bf16) (K V : Vec Ideal S8x4096x32 .bf16) (h : Fin 8) (r : Fin 512) (d : Fin 32)
    (n : Fin 4096) : EReal :=
  Ideal.tanh (∑ e : Fin 32, q (ix3 h r e) * K (ix3 h n e)) * V (ix3 h n d)

/-- The same on the naturals, zero past the last row: the form the regrouping of a sum over a range uses. -/
def keyTermN (q : Vec Ideal S8x512x32 .bf16) (K V : Vec Ideal S8x4096x32 .bf16) (h : Fin 8) (r : Fin 512) (d : Fin 32)
    (n : ℕ) : EReal :=
  if hn : n < 4096 then keyTerm q K V h r d ⟨n, hn⟩ else 0

/-- What step j adds: the terms of its 256 rows. -/
def stretchSum (q : Vec Ideal S8x512x32 .bf16) (K V : Vec Ideal S8x4096x32 .bf16) (h : Fin 8) (r : Fin 512) (d : Fin 32)
    (s : ℕ) : EReal :=
  ∑ l : Fin 256, keyTermN q K V h r d (256 * s + l.val)

theorem stepTerm_stretch (q : Vec Ideal S8x512x32 .bf16) (K V : Vec Ideal S8x4096x32 .bf16) (j : Fin 16)
    (h : Fin 8) (r : Fin 512) (d : Fin 32) :
    stepTerm q (View.ld K (rK j)) (View.ld V (rK j)) h r d = stretchSum q K V h r d j.val := by
  unfold stepTerm stretchSum
  refine Finset.sum_congr rfl fun m _ => ?_
  unfold keyTermN
  rw [dif_pos (show 256 * j.val + m.val < 4096 by omega)]
  unfold keyTerm
  rw [ld_rK_apply V j h m d]
  refine congrArg (fun t => Ideal.tanh t * V (ix3 h (rowOf j m) d)) (Finset.sum_congr rfl fun e _ => ?_)
  rw [ld_rK_apply K j h m e]
  rfl

/-- The whole sum over the 4096 key rows is the sum of the sixteen stretches' sums. -/
theorem sum_keyTerm (q : Vec Ideal S8x512x32 .bf16) (K V : Vec Ideal S8x4096x32 .bf16) (h : Fin 8) (r : Fin 512) (d : Fin 32) :
    ∑ n : Fin 4096, keyTerm q K V h r d n = ∑ s ∈ Finset.range 16, stretchSum q K V h r d s := by
  have e1 : ∑ n : Fin 4096, keyTerm q K V h r d n = ∑ n : Fin 4096, keyTermN q K V h r d n.val :=
    Finset.sum_congr rfl fun n _ => by unfold keyTermN; rw [dif_pos n.isLt]
  rw [e1, Fin.sum_univ_eq_sum_range (keyTermN q K V h r d) 4096, show (4096 : ℕ) = 16 * 256 from rfl,
    Cert.BlockSum.sum_range_blocks (keyTermN q K V h r d) 256 16]
  refine Finset.sum_congr rfl fun s _ => ?_
  exact (Fin.sum_univ_eq_sum_range (fun l => keyTermN q K V h r d (256 * s + l)) 256).symm

/-! ## The accumulator after the sixteen steps -/

theorem accAfter_apply (x0 : Vec Ideal S8x512x32 .bf16) (x1 x2 : Vec Ideal S8x4096x32 .bf16) (h : Fin 8) (r : Fin 512) (d : Fin 32) :
    accAfter (F := Ideal) x0 x1 x2 (ix3 h r d) = ∑ n : Fin 4096, keyTerm x0 x1 x2 h r d n := by
  rw [sum_keyTerm]
  simp only [Finset.sum_range_succ, Finset.sum_range_zero]
  unfold accAfter
  simp only [pay3_eq, pay5_eq, pay8_eq, ld_rQ]
  rw [pay27_apply, pay26_apply, pay23_apply, pay22_apply, pay19_apply, pay18_17_apply, pay16_apply, pay15_14_apply,
    pay13_apply, pay12_apply, pay11_apply, pay10_apply, pay9_apply, pay7_apply, pay6_apply, pay4_apply, pay2_apply]
  rw [stepTerm_stretch x0 x1 x2 0, stepTerm_stretch x0 x1 x2 1, stepTerm_stretch x0 x1 x2 2, stepTerm_stretch x0 x1 x2 3,
    stepTerm_stretch x0 x1 x2 4, stepTerm_stretch x0 x1 x2 5, stepTerm_stretch x0 x1 x2 6, stepTerm_stretch x0 x1 x2 7,
    stepTerm_stretch x0 x1 x2 8, stepTerm_stretch x0 x1 x2 9, stepTerm_stretch x0 x1 x2 10, stepTerm_stretch x0 x1 x2 11,
    stepTerm_stretch x0 x1 x2 12, stepTerm_stretch x0 x1 x2 13, stepTerm_stretch x0 x1 x2 14, stepTerm_stretch x0 x1 x2 15]
  rfl

/-! ## The stored block -/

/-- The block the attention stage stores, at head h, query row r, lane d. -/
theorem out1_3_apply (x0 : Vec Ideal S8x512x32 .bf16) (x1 x2 : Vec Ideal S8x4096x32 .bf16) (h : Fin 8) (r : Fin 512) (d : Fin 32) :
    out1_3 (F := Ideal) x0 x1 x2 (ix3 h r d)
      = ∑ m : Fin 4096, Ideal.tanh (∑ e : Fin 32, x0 (ix3 h r e) * x1 (ix3 h m e)) * x2 (ix3 h m d) := by
  unfold out1_3
  rw [View.canon_unit_zero (funext fun a => by match a with | ⟨0, _⟩ => rfl | ⟨1, _⟩ => rfl | ⟨2, _⟩ => rfl)]
  unfold k1_pay1
  show accAfter (F := Ideal) x0 x1 x2 (ix3 h r d) = _
  rw [accAfter_apply]
  rfl

end Cert.KernelIdeal.Val

end
-- ==== Proof.ValR1Final.lean ====
/-
  The attention stage's output array after its run is the whole-array attention of the arrays the stage was
  entered with.

  The stage's grid has 8 points. At point t the query block is rows 512 t .. 512 t + 511 (all 8 heads, all 32
  lanes) of the query array, the key and value blocks are the whole key and value arrays, and the block written
  back is rows 512 t .. 512 t + 511 of the output array. Given the stored block entry by entry,

      block(h, r, d) = Σ_{m < 4096} tanh (Σ_{e < 32} q(h, r, e) · k(h, m, e)) · v(h, m, d),

  what point t writes back is therefore block t of the whole-array function G1 of the three arrays; the 8 blocks
  cover the output array (query row n lies in the block of point n / 512), so the array ends holding G1.
-/
import proofs.«130410_j11501922419472_2_alg».proof.Proof.FrameDefs
import proofs.«130410_j11501922419472_2_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

/-! ## One entry of the stored block against the whole-array function -/

/-- If the query block's row r is row n of Q in head h, and the key and value blocks agree with K and W in
    head h, then the stored block at (h, r, d) is the whole-array attention of Q, K, W at (h, n, d). -/
theorem out1_3_eq_G1_of (hpay : ∀ (x0 : Vec Ideal S8x512x32 .bf16) (x1 x2 : Vec Ideal S8x4096x32 .bf16) (h : Fin 8) (r : Fin 512) (d : Fin 32),
      out1_3 (F := Ideal) x0 x1 x2 (ix3 h r d)
        = ∑ m : Fin 4096, Ideal.tanh (∑ e : Fin 32, x0 (ix3 h r e) * x1 (ix3 h m e)) * x2 (ix3 h m d))
    (Q K W : Cert.Spec.A3 8 4096 32)
    (x0 : Vec Ideal S8x512x32 .bf16) (x1 x2 : Vec Ideal S8x4096x32 .bf16) (h : Fin 8) (r : Fin 512) (d : Fin 32) (n : Fin 4096)
    (h0 : ∀ e : Fin 32, x0 (ix3 h r e) = Q (ix3 h n e))
    (h1 : ∀ (m : Fin 4096) (e : Fin 32), x1 (ix3 h m e) = K (ix3 h m e))
    (h2 : ∀ m : Fin 4096, x2 (ix3 h m d) = W (ix3 h m d)) :
    out1_3 (F := Ideal) x0 x1 x2 (ix3 h r d) = Cert.Spec.G1 Q K W (ix3 h n d) := by
  rw [hpay]
  show _ = ∑ m : Fin 4096, Ideal.tanh (∑ e : Fin 32, Q (ix3 h n e) * K (ix3 h m e)) * W (ix3 h m d)
  refine Finset.sum_congr rfl fun m _ => ?_
  have hs : (∑ e : Fin 32, x0 (ix3 h r e) * x1 (ix3 h m e)) = ∑ e : Fin 32, Q (ix3 h n e) * K (ix3 h m e) :=
    Finset.sum_congr rfl fun e _ => by rw [h0 e, h1 m e]
  rw [hs, h2 m]

/-! ## The windows' blocks as parts of their arrays -/

/-- The printed index maps, decided once over the grid: the query and output blocks move along the rows with
    the point, the keys and values stay. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- The query block at point t is rows 512 t .. 512 t + 511 of the query array. -/
theorem iblk1_0_apply (V : (c : Dev nD) → (b : Ref sig .tc) → Buf (Elt Ideal) ((c : Thread nD τ).loc b)) (c : Dev nD) (t : Fin cfg1.N) (x : S8x512x32.Idx) (k : S8x4096x32.Idx)
    (hk0 : (k 0).val = (x 0).val) (hk1 : (k 1).val = t.val * 512 + (x 1).val) (hk2 : (k 2).val = (x 2).val) :
    (iblk1 V c 0 t : Vec Ideal S8x512x32 .bf16) x = (V c main_v8 : S8x4096x32.Idx → EReal) k := by
  obtain ⟨e0, e1, e2, -⟩ := idx_facts1 t
  unfold iblk1
  rw [View.read_apply]
  show V c main_v8 _ = V c main_v8 _
  congr 1
  funext a
  apply Fin.ext
  match a with
  | ⟨0, _⟩ => show win1_0.index t 0 * 8 + 1 * (x 0).val = (k 0).val; rw [e0, hk0]; omega
  | ⟨1, _⟩ => show win1_0.index t 1 * 512 + 1 * (x 1).val = (k 1).val; rw [e1, hk1]; omega
  | ⟨2, _⟩ => show win1_0.index t 2 * 32 + 1 * (x 2).val = (k 2).val; rw [e2, hk2]; omega

/-- The key block at every point is the whole key array. -/
theorem iblk1_1_apply (V : (c : Dev nD) → (b : Ref sig .tc) → Buf (Elt Ideal) ((c : Thread nD τ).loc b)) (c : Dev nD) (t : Fin cfg1.N) (x : S8x4096x32.Idx) :
    (iblk1 V c 1 t : Vec Ideal S8x4096x32 .bf16) x = (V c main_v10 : S8x4096x32.Idx → EReal) x := by
  obtain ⟨-, -, -, e0, e1, e2, -⟩ := idx_facts1 t
  unfold iblk1
  rw [View.read_apply]
  show V c main_v10 _ = V c main_v10 _
  congr 1
  funext a
  apply Fin.ext
  match a with
  | ⟨0, _⟩ => show win1_1.index t 0 * 8 + 1 * (x 0).val = (x 0).val; rw [e0]; omega
  | ⟨1, _⟩ => show win1_1.index t 1 * 4096 + 1 * (x 1).val = (x 1).val; rw [e1]; omega
  | ⟨2, _⟩ => show win1_1.index t 2 * 32 + 1 * (x 2).val = (x 2).val; rw [e2]; omega

/-- The value block at every point is the whole value array. -/
theorem iblk1_2_apply (V : (c : Dev nD) → (b : Ref sig .tc) → Buf (Elt Ideal) ((c : Thread nD τ).loc b)) (c : Dev nD) (t : Fin cfg1.N) (x : S8x4096x32.Idx) :
    (iblk1 V c 2 t : Vec Ideal S8x4096x32 .bf16) x = (V c main_v12 : S8x4096x32.Idx → EReal) x := by
  obtain ⟨-, -, -, -, -, -, e0, e1, e2, -⟩ := idx_facts1 t
  unfold iblk1
  rw [View.read_apply]
  show V c main_v12 _ = V c main_v12 _
  congr 1
  funext a
  apply Fin.ext
  match a with
  | ⟨0, _⟩ => show win1_2.index t 0 * 8 + 1 * (x 0).val = (x 0).val; rw [e0]; omega
  | ⟨1, _⟩ => show win1_2.index t 1 * 4096 + 1 * (x 1).val = (x 1).val; rw [e1]; omega
  | ⟨2, _⟩ => show win1_2.index t 2 * 32 + 1 * (x 2).val = (x 2).val; rw [e2]; omega

/-! ## What a point writes back -/

/-- What point t writes back is block t of the whole-array attention of the arrays as the stage finds them. -/
theorem flushed1_eq_of (hpay : ∀ (x0 : Vec Ideal S8x512x32 .bf16) (x1 x2 : Vec Ideal S8x4096x32 .bf16) (h : Fin 8) (r : Fin 512) (d : Fin 32),
      out1_3 (F := Ideal) x0 x1 x2 (ix3 h r d)
        = ∑ m : Fin 4096, Ideal.tanh (∑ e : Fin 32, x0 (ix3 h r e) * x1 (ix3 h m e)) * x2 (ix3 h m d))
    (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.G1 (V c main_v8) (V c main_v10) (V c main_v12)) := by
  show (cfg1.win 3).cut (grid1.coords t) ((dat1 V c).after 3 t) = _
  rw [after1_3]
  funext j
  obtain ⟨-, -, -, -, -, -, -, -, -, e0, e1, e2⟩ := idx_facts1 t
  have hj0 : (j 0).val < 8 := (j 0).isLt
  have hj1 : (j 1).val < 512 := (j 1).isLt
  have hj2 : (j 2).val < 32 := (j 2).isLt
  have hN : grid1.N = 8 := N_1
  have ht : t.val < 8 := hN ▸ t.isLt
  have hr : t.val * 512 + (j 1).val < 4096 := by omega
  have hl : (cfg1.win 3).xinj (grid1.coords t) j
      = ix3 (⟨(j 0).val, hj0⟩ : Fin 8) (⟨(j 1).val, hj1⟩ : Fin 512) (⟨(j 2).val, hj2⟩ : Fin 32) := by
    funext a
    match a with
    | ⟨0, _⟩ => rfl
    | ⟨1, _⟩ => rfl
    | ⟨2, _⟩ => rfl
  have hrr : ((cfg1.win 3).blk t).view.emb j
      = ix3 (⟨(j 0).val, hj0⟩ : Fin 8) (⟨t.val * 512 + (j 1).val, hr⟩ : Fin 4096) (⟨(j 2).val, hj2⟩ : Fin 32) := by
    funext a
    apply Fin.ext
    match a with
    | ⟨0, _⟩ => show win1_3.index t 0 * 8 + 1 * (j 0).val = (j 0).val; rw [e0]; omega
    | ⟨1, _⟩ => show win1_3.index t 1 * 512 + 1 * (j 1).val = t.val * 512 + (j 1).val; rw [e1]; omega
    | ⟨2, _⟩ => show win1_3.index t 2 * 32 + 1 * (j 2).val = (j 2).val; rw [e2]; omega
  show out1_3 (iblk1 V c 0 t) (iblk1 V c 1 t) (iblk1 V c 2 t) ((cfg1.win 3).xinj (grid1.coords t) j)
      = Cert.Spec.G1 (V c main_v8) (V c main_v10) (V c main_v12) (((cfg1.win 3).blk t).view.emb j)
  refine (congrArg (out1_3 (iblk1 V c 0 t) (iblk1 V c 1 t) (iblk1 V c 2 t)) hl).trans ?_
  refine Eq.trans ?_ (congrArg (Cert.Spec.G1 (V c main_v8) (V c main_v10) (V c main_v12)) hrr).symm
  refine out1_3_eq_G1_of hpay _ _ _ _ _ _ _ _ _ _ (fun e => ?_) (fun m e => ?_) (fun m => ?_)
  · exact iblk1_0_apply V c t _ _ rfl rfl rfl
  · exact iblk1_1_apply V c t _
  · exact iblk1_2_apply V c t _

/-! ## The blocks cover the output array -/

/-- An index of the output array is in point t's block iff each coordinate is in the block's range on its axis. -/
theorem mem_blk1 (t : Fin cfg1.N) (i : S8x4096x32.Idx) :
    i ∈ ((cfg1.win 3).blk t).view.set ↔ ∀ a : Fin 3, win1_3.index t a * S8x512x32.size a ≤ (i a).val ∧ (i a).val < win1_3.index t a * S8x512x32.size a + S8x512x32.size a := by
  show i ∈ ((View.whole main_v13).slice (win1_3.rect t)).set ↔ _
  rw [View.set_slice_whole, Rect.mem_set_unit]
  exact Iff.rfl

/-- Query row n of the output, in every head and lane, lies in the block of point n / 512. -/
theorem cover1 (i : S8x4096x32.Idx) : ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 32 := (i 2).isLt
  have hN : grid1.N = 8 := N_1
  refine ⟨⟨(i 1).val / 512, by show _ < grid1.N; rw [hN]; omega⟩, flush1_3 _, ?_⟩
  rw [mem_blk1]
  obtain ⟨-, -, -, -, -, -, -, -, -, e0, e1, e2⟩ := idx_facts1 ⟨(i 1).val / 512, by show _ < grid1.N; rw [hN]; omega⟩
  intro a
  match a with
  | ⟨0, _⟩ =>
    show win1_3.index _ (0 : Fin 3) * 8 ≤ (i 0).val ∧ (i 0).val < win1_3.index _ (0 : Fin 3) * 8 + 8
    rw [e0]; omega
  | ⟨1, _⟩ =>
    show win1_3.index _ (1 : Fin 3) * 512 ≤ (i 1).val ∧ (i 1).val < win1_3.index _ (1 : Fin 3) * 512 + 512
    rw [e1]; show (i 1).val / 512 * 512 ≤ (i 1).val ∧ (i 1).val < (i 1).val / 512 * 512 + 512; omega
  | ⟨2, _⟩ =>
    show win1_3.index _ (2 : Fin 3) * 32 ≤ (i 2).val ∧ (i 2).val < win1_3.index _ (2 : Fin 3) * 32 + 32
    rw [e2]; omega

/-! ## The output array after the run -/

/-- The attention stage's output array after its run: the whole-array attention of the query, key and value
    arrays the stage was entered with. -/
theorem final1_of (hpay : ∀ (x0 : Vec Ideal S8x512x32 .bf16) (x1 x2 : Vec Ideal S8x4096x32 .bf16) (h : Fin 8) (r : Fin 512) (d : Fin 32),
      out1_3 (F := Ideal) x0 x1 x2 (ix3 h r d)
        = ∑ m : Fin 4096, Ideal.tanh (∑ e : Fin 32, x0 (ix3 h r e) * x1 (ix3 h m e)) * x2 (ix3 h m d))
    (V : (c : Dev nD) → (b : Ref sig .tc) → Buf (Elt Ideal) ((c : Thread nD τ).loc b)) (c : Dev nD) :
    ((dat1 (F := Ideal) V c).arrAt 3 cfg1.N : S8x4096x32.Idx → EReal)
      = Cert.Spec.G1 (V c main_v8) (V c main_v10) (V c main_v12) :=
  (dat1 (F := Ideal) V c).arrAt_eq_of_cover 3 (Cert.Spec.G1 (V c main_v8) (V c main_v10) (V c main_v12))
    (fun t _ => flushed1_eq_of hpay V c t) cover1

end Cert.KernelIdeal.Val

end
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«130410_j11501922419472_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.ValR2.lean ====
import proofs.«130410_j11501922419472_2_alg».proof.Proof.FrameDefs
import proofs.«130410_j11501922419472_2_alg».proof.Proof.Spec
import proofs.«130410_j11501922419472_2_alg».proof.Proof.LibAffineAt
import proofs.«130410_j11501922419472_2_alg».proof.Proof.ValR0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)
open scoped BigOperators

/-! ## Stage 2: one block of the affine map followed by the maximum with zero -/

/-- Stage 2's block computation at an entry: row p of the block of rows against column q of the weights, plus the
    bias row's entry q, then the maximum with zero. -/
theorem out2_3_apply (x0 : Vec Ideal S1024x256 .bf16) (x1 : Vec Ideal S256x256 .bf16) (x2 : Vec Ideal S1x256 .f32)
    (p : Fin 1024) (q : Fin 256) :
    out2_3 x0 x1 x2 (ix2 p q) = max ((∑ k : Fin 256, x0 (ix2 p k) * x1 (ix2 k q)) + x2 (ix2 (0 : Fin 1) q)) 0 := by
  unfold out2_3
  rw [View.canon_unit_zero zeros2]
  simp only [View.ld_unit_zero (S := S1024x256) zeros2, View.ld_unit_zero (S := S256x256) zeros2, View.ld_unit_zero (S := S1x256) zeros2]
  unfold k2_pay1
  simp only [shapeCast_self]
  refine (maximumf_apply (φ := .f32) _ _ (ix2 p q)).trans ?_
  refine congrArg₂ max ?_ ?_
  · refine (addf_apply (φ := .f32) _ _ (ix2 p q)).trans ?_
    refine congrArg₂ (· + ·) ?_ ?_
    · exact Cert.KernelIdeal.Hand.matmul_zero_plain_apply (φ₁ := .bf16) (φ₂ := .bf16) dot_S1024x256_S256x256_S1024x256_1_0_0_1_n_n rfl none x0 x1 (ix2 p q)
    · exact Cert.LibAffineAt.broadcastTo_oneRow_apply x2 broadcasts_S1x256_S1024x256 p q
  · show Ideal.ofBits .f32 0x00000000#32 = 0
    exact Ideal.ofBits_zero_f32

/-- If the block of rows holds rows of A starting where row p sits at row r, and the weight and bias blocks are
    all of W and b, the block computation at (p, q) is the whole stage at (r, q). -/
theorem out2_3_eq_G2 (A : Cert.Spec.A2 4096 256) (W : Cert.Spec.A2 256 256) (b : Cert.Spec.A2 1 256)
    (x0 : Vec Ideal S1024x256 .bf16) (x1 : Vec Ideal S256x256 .bf16) (x2 : Vec Ideal S1x256 .f32)
    (p : Fin 1024) (q : Fin 256) (r : Fin 4096)
    (h0 : ∀ k : Fin 256, x0 (ix2 p k) = A (ix2 r k)) (h1 : ∀ k : Fin 256, x1 (ix2 k q) = W (ix2 k q))
    (h2 : x2 (ix2 (0 : Fin 1) q) = b (ix2 (0 : Fin 1) q)) :
    out2_3 x0 x1 x2 (ix2 p q) = Cert.Spec.G2 A W b (ix2 r q) := by
  rw [out2_3_apply]
  show _ = max ((∑ k : Fin 256, A (ix2 r k) * W (ix2 k q)) + b (ix2 (0 : Fin 1) q)) 0
  rw [h2, Finset.sum_congr rfl fun k _ => by rw [h0 k, h1 k]]

/-- The printed index maps, decided once over the grid: the row blocks of the input and of the output move with
    the point, the weights and the bias row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Regions
variable (V : (c : Dev nD) → (b : Ref sig .tc) → Buf (Elt Ideal) ((c : Thread nD τ).loc b))

/-- The input's block at point t is rows 1024 t … 1024 t + 1023 of the array. -/
theorem iblk2_0_apply (c : Dev nD) (t : Fin cfg2.N) (x : S1024x256.Idx) (k : S4096x256.Idx)
    (hk0 : (k 0).val = t.val * 1024 + (x 0).val) (hk1 : (k 1).val = (x 1).val) :
    (iblk2 V c 0 t : Vec Ideal S1024x256 .bf16) x = (V c main_v15 : S4096x256.Idx → EReal) k := by
  obtain ⟨e0, e1, -, -, -, -, -, -⟩ := idx_facts2 t
  unfold iblk2
  rw [View.read_apply]
  show V c main_v15 _ = V c main_v15 _
  congr 1
  funext a
  apply Fin.ext
  match a with
  | ⟨0, _⟩ => show win2_0.index t 0 * 1024 + 1 * (x 0).val = (k 0).val; rw [e0, hk0]; omega
  | ⟨1, _⟩ => show win2_0.index t 1 * 256 + 1 * (x 1).val = (k 1).val; rw [e1, hk1]; omega

/-- The weights' block at every point is the whole weight matrix. -/
theorem iblk2_1_apply (c : Dev nD) (t : Fin cfg2.N) (x : S256x256.Idx) :
    (iblk2 V c 1 t : Vec Ideal S256x256 .bf16) x = (V c main_v17 : S256x256.Idx → EReal) x := by
  obtain ⟨-, -, e2, e3, -, -, -, -⟩ := idx_facts2 t
  unfold iblk2
  rw [View.read_apply]
  show V c main_v17 _ = V c main_v17 _
  congr 1
  funext a
  apply Fin.ext
  match a with
  | ⟨0, _⟩ => show win2_1.index t 0 * 256 + 1 * (x 0).val = (x 0).val; rw [e2]; omega
  | ⟨1, _⟩ => show win2_1.index t 1 * 256 + 1 * (x 1).val = (x 1).val; rw [e3]; omega

/-- The bias row's block at every point is the whole one-row matrix. -/
theorem iblk2_2_apply (c : Dev nD) (t : Fin cfg2.N) (x : S1x256.Idx) :
    (iblk2 V c 2 t : Vec Ideal S1x256 .f32) x = (V c main_v18 : S1x256.Idx → EReal) x := by
  obtain ⟨-, -, -, -, e4, e5, -, -⟩ := idx_facts2 t
  unfold iblk2
  rw [View.read_apply]
  show V c main_v18 _ = V c main_v18 _
  congr 1
  funext a
  apply Fin.ext
  match a with
  | ⟨0, _⟩ => show win2_2.index t 0 * 1 + 1 * (x 0).val = (x 0).val; rw [e4]; omega
  | ⟨1, _⟩ => show win2_2.index t 1 * 256 + 1 * (x 1).val = (x 1).val; rw [e5]; omega

/-- What point t writes back is block t of the whole stage. -/
theorem flushed2_eq (c : Dev nD) (t : Fin cfg2.N) :
    (dat2 (F := Ideal) V c).flushed 3 t = ((cfg2.win 3).blk t).view.read (Elt Ideal) (Cert.Spec.G2 (V c main_v15) (V c main_v17) (V c main_v18)) := by
  show (cfg2.win 3).cut (grid2.coords t) ((dat2 V c).after 3 t) = _
  rw [after2_3]
  funext j
  obtain ⟨-, -, -, -, -, -, e6, e7⟩ := idx_facts2 t
  have hj0 : (j 0).val < 1024 := (j 0).isLt
  have hj1 : (j 1).val < 256 := (j 1).isLt
  have hN : grid2.N = 4 := N_2
  have ht : t.val < 4 := hN ▸ t.isLt
  have hr : t.val * 1024 + (j 0).val < 4096 := by omega
  have hl : (cfg2.win 3).xinj (grid2.coords t) j = ix2 (⟨(j 0).val, hj0⟩ : Fin 1024) (⟨(j 1).val, hj1⟩ : Fin 256) := by
    funext a
    match a with
    | ⟨0, _⟩ => rfl
    | ⟨1, _⟩ => rfl
  have hrr : ((cfg2.win 3).blk t).view.emb j = ix2 (⟨t.val * 1024 + (j 0).val, hr⟩ : Fin 4096) (⟨(j 1).val, hj1⟩ : Fin 256) := by
    funext a
    apply Fin.ext
    match a with
    | ⟨0, _⟩ => show win2_3.index t 0 * 1024 + 1 * (j 0).val = t.val * 1024 + (j 0).val; rw [e6]; omega
    | ⟨1, _⟩ => show win2_3.index t 1 * 256 + 1 * (j 1).val = (j 1).val; rw [e7]; omega
  show out2_3 (iblk2 V c 0 t) (iblk2 V c 1 t) (iblk2 V c 2 t) ((cfg2.win 3).xinj (grid2.coords t) j)
      = Cert.Spec.G2 (V c main_v15) (V c main_v17) (V c main_v18) (((cfg2.win 3).blk t).view.emb j)
  refine (congrArg (out2_3 (iblk2 V c 0 t) (iblk2 V c 1 t) (iblk2 V c 2 t)) hl).trans ?_
  refine Eq.trans ?_ (congrArg (Cert.Spec.G2 (V c main_v15) (V c main_v17) (V c main_v18)) hrr).symm
  refine out2_3_eq_G2 _ _ _ _ _ _ _ _ _ (fun k => ?_) (fun k => ?_) ?_
  · exact iblk2_0_apply V c t _ _ rfl rfl
  · exact iblk2_1_apply V c t _
  · exact iblk2_2_apply V c t _

/-- An index of the result is in point t's block iff each coordinate is in the block's range on its axis. -/
theorem mem_blk2 (t : Fin cfg2.N) (i : S4096x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v19).slice (win2_3.rect t)).set ↔ _
  rw [View.set_slice_whole, Rect.mem_set_unit]
  exact Iff.rfl

/-- Every row r of the result lies in the block of point r / 1024. -/
theorem cover2 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : grid2.N = 4 := N_2
  refine ⟨⟨(i 0).val / 1024, by show _ < grid2.N; rw [hN]; omega⟩, flush2_3 _, ?_⟩
  rw [mem_blk2]
  obtain ⟨-, -, -, -, -, -, e6, e7⟩ := idx_facts2 ⟨(i 0).val / 1024, by show _ < grid2.N; rw [hN]; omega⟩
  intro a
  match a with
  | ⟨0, _⟩ =>
    show win2_3.index _ (0 : Fin 2) * 1024 ≤ (i 0).val ∧ (i 0).val < win2_3.index _ (0 : Fin 2) * 1024 + 1024
    rw [e6]; show (i 0).val / 1024 * 1024 ≤ (i 0).val ∧ (i 0).val < (i 0).val / 1024 * 1024 + 1024; omega
  | ⟨1, _⟩ =>
    show win2_3.index _ (1 : Fin 2) * 256 ≤ (i 1).val ∧ (i 1).val < win2_3.index _ (1 : Fin 2) * 256 + 256
    rw [e7]; omega

/-- The result array after stage 2's run: the whole affine map and maximum of the arrays the stage was entered with. -/
theorem final2 (c : Dev nD) :
    ((dat2 (F := Ideal) V c).arrAt 3 cfg2.N : S4096x256.Idx → EReal) = Cert.Spec.G2 (V c main_v15) (V c main_v17) (V c main_v18) :=
  (dat2 (F := Ideal) V c).arrAt_eq_of_cover 3 (Cert.Spec.G2 (V c main_v15) (V c main_v17) (V c main_v18)) (fun t _ => flushed2_eq V c t) cover2

end Regions

end Cert.KernelIdeal.Val

end
-- ==== Proof.GlueMath.lean ====
import proofs.«130410_j11501922419472_2_alg».proof.Proof.Spec

/-
  The three stages composed are the specification.

  Stage 0 multiplies x by the 256×768 matrix whose columns are the rows of Wq, then of Wk, then of Wv; its
  result's columns 32 h + d, 256 + 32 h + d and 512 + 32 h + d of row n are lane d of head h of the three
  projections of row n. Stage 1 on those three arrays is the attention sum of the specification. Stage 2 on the
  heads laid side by side (column k is head k / 32, lane k % 32), the transposed last weight and the bias as a
  row is the closing affine map and the maximum with zero. Only the regrouping of which entry is read where
  is used: every sum is over the same index set on both sides, term by term equal.
-/

noncomputable section

open scoped BigOperators

namespace Cert.Spec

open Idealize.ShloMosaic Idealize.ShloMosaic.ValueIdx

/-- Column c of the first third of a 768-column matrix. -/
def colQ (c : Fin 256) : Fin 768 := ⟨c.val, by omega⟩
/-- Column c of the second third. -/
def colK (c : Fin 256) : Fin 768 := ⟨256 + c.val, by omega⟩
/-- Column c of the last third. -/
def colV (c : Fin 256) : Fin 768 := ⟨512 + c.val, by omega⟩

/-- The three weights stacked (768 rows) and transposed: column j of the 256×768 matrix is row j of Wq for
    j < 256, row j − 256 of Wk for j < 512, and row j − 512 of Wv otherwise. -/
def wqkvT (Wq Wk Wv : A2 256 256) : A2 256 768 := fun i =>
  if h : (i 1).val < 256 then Wq (ix2 ⟨(i 1).val, h⟩ (i 0))
  else if h2 : (i 1).val < 512 then Wk (ix2 ⟨(i 1).val - 256, by omega⟩ (i 0))
  else Wv (ix2 ⟨(i 1).val - 512, by have h3 : (i 1).val < 768 := (i 1).isLt; omega⟩ (i 0))

theorem wqkvT_q (Wq Wk Wv : A2 256 256) (k c : Fin 256) :
    wqkvT Wq Wk Wv (ix2 k (colQ c)) = Wq (ix2 c k) := by
  unfold wqkvT
  rw [dif_pos (show ((ix2 k (colQ c) : (⟨2, ![256, 768]⟩ : Shape).Idx) 1).val < 256 from c.isLt)]
  rfl

theorem wqkvT_k (Wq Wk Wv : A2 256 256) (k c : Fin 256) :
    wqkvT Wq Wk Wv (ix2 k (colK c)) = Wk (ix2 c k) := by
  have hc := c.isLt
  unfold wqkvT
  rw [dif_neg (show ¬ ((ix2 k (colK c) : (⟨2, ![256, 768]⟩ : Shape).Idx) 1).val < 256 from by
      show ¬ (256 + c.val < 256); omega),
    dif_pos (show ((ix2 k (colK c) : (⟨2, ![256, 768]⟩ : Shape).Idx) 1).val < 512 from by
      show 256 + c.val < 512; omega)]
  refine congrArg Wk (congrArg (fun a => ix2 a k) (Fin.ext ?_))
  show 256 + c.val - 256 = c.val
  omega

theorem wqkvT_v (Wq Wk Wv : A2 256 256) (k c : Fin 256) :
    wqkvT Wq Wk Wv (ix2 k (colV c)) = Wv (ix2 c k) := by
  have hc := c.isLt
  unfold wqkvT
  rw [dif_neg (show ¬ ((ix2 k (colV c) : (⟨2, ![256, 768]⟩ : Shape).Idx) 1).val < 256 from by
      show ¬ (512 + c.val < 256); omega),
    dif_neg (show ¬ ((ix2 k (colV c) : (⟨2, ![256, 768]⟩ : Shape).Idx) 1).val < 512 from by
      show ¬ (512 + c.val < 512); omega)]
  refine congrArg Wv (congrArg (fun a => ix2 a k) (Fin.ext ?_))
  show 512 + c.val - 512 = c.val
  omega

section
variable (X : A2 4096 256) (Wq Wk Wv : A2 256 256) (Wt : A2 256 768)
  (hWt : ∀ (k : Fin 256) (j : Fin 768), Wt (ix2 k j) = wqkvT Wq Wk Wv (ix2 k j))
include hWt

/-- Stage 0 at a column of the first third is the first projection. -/
theorem G0_q (n : Fin 4096) (c : Fin 256) : G0 X Wt (ix2 n (colQ c)) = proj X Wq n c := by
  unfold G0 proj
  refine Finset.sum_congr rfl fun k _ => ?_
  show X (ix2 n k) * Wt (ix2 k (colQ c)) = _
  rw [hWt, wqkvT_q]

/-- Stage 0 at a column of the second third is the second projection. -/
theorem G0_k (n : Fin 4096) (c : Fin 256) : G0 X Wt (ix2 n (colK c)) = proj X Wk n c := by
  unfold G0 proj
  refine Finset.sum_congr rfl fun k _ => ?_
  show X (ix2 n k) * Wt (ix2 k (colK c)) = _
  rw [hWt, wqkvT_k]

/-- Stage 0 at a column of the last third is the third projection. -/
theorem G0_v (n : Fin 4096) (c : Fin 256) : G0 X Wt (ix2 n (colV c)) = proj X Wv n c := by
  unfold G0 proj
  refine Finset.sum_congr rfl fun k _ => ?_
  show X (ix2 n k) * Wt (ix2 k (colV c)) = _
  rw [hWt, wqkvT_v]

end

/-- THE COMPOSITION LAW: stage 2 of (stage 1 of the three head arrays cut out of stage 0, laid side by side),
    against the transposed last weight and the bias row, is the specification. -/
theorem compose (X : A2 4096 256) (Wq Wk Wv Wf : A2 256 256) (bf : A1 256) (Wt : A2 256 768)
    (hWt : ∀ (k : Fin 256) (j : Fin 768), Wt (ix2 k j) = wqkvT Wq Wk Wv (ix2 k j))
    (Q K V : A3 8 4096 32)
    (hQ : ∀ (h : Fin 8) (n : Fin 4096) (d : Fin 32), Q (ix3 h n d) = G0 X Wt (ix2 n (colQ (col h d))))
    (hK : ∀ (h : Fin 8) (n : Fin 4096) (d : Fin 32), K (ix3 h n d) = G0 X Wt (ix2 n (colK (col h d))))
    (hV : ∀ (h : Fin 8) (n : Fin 4096) (d : Fin 32), V (ix3 h n d) = G0 X Wt (ix2 n (colV (col h d))))
    (A : A2 4096 256)
    (hA : ∀ (n : Fin 4096) (k : Fin 256), A (ix2 n k) = G1 Q K V (ix3 (headOf k) n (laneOf k)))
    (WfT : A2 256 256) (hWfT : ∀ k j : Fin 256, WfT (ix2 k j) = Wf (ix2 j k))
    (b : A2 1 256) (hb : ∀ j : Fin 256, b (ix2 0 j) = bf (ix1 j)) :
    G2 A WfT b = out X Wq Wk Wv Wf bf := by
  funext i
  obtain ⟨n, j, rfl⟩ : ∃ (n : Fin 4096) (j : Fin 256), i = ix2 n j := ⟨i 0, i 1, eq_ix2 i⟩
  show max (∑ k : Fin 256, A (ix2 n k) * WfT (ix2 k j) + b (ix2 0 j)) 0
    = max (∑ k : Fin 256, att X Wq Wk Wv (headOf k) n (laneOf k) * Wf (ix2 j k) + bf (ix1 j)) 0
  rw [hb]
  refine congrArg (fun s => max (s + bf (ix1 j)) 0) (Finset.sum_congr rfl fun k _ => ?_)
  rw [hA, hWfT]
  refine congrArg (· * Wf (ix2 j k)) ?_
  show (∑ m : Fin 4096, Ideal.tanh (∑ e : Fin 32, Q (ix3 (headOf k) n e) * K (ix3 (headOf k) m e))
      * V (ix3 (headOf k) m (laneOf k))) = att X Wq Wk Wv (headOf k) n (laneOf k)
  unfold att score
  refine Finset.sum_congr rfl fun m _ => ?_
  rw [hV, G0_v X Wq Wk Wv Wt hWt]
  refine congrArg (fun s => Ideal.tanh s * proj X Wv m (col (headOf k) (laneOf k))) (Finset.sum_congr rfl fun e _ => ?_)
  rw [hQ, hK, G0_q X Wq Wk Wv Wt hWt, G0_k X Wq Wk Wv Wt hWt]

end Cert.Spec

end
-- ==== Proof.Glue.lean ====
import proofs.«130410_j11501922419472_2_alg».proof.Proof.Gen.KernelIdeal.Launch
import proofs.«130410_j11501922419472_2_alg».proof.Proof.GlueMath
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.ShloMosaic.ValueIdx
open Idealize.ShloMosaic.StableHlo
open Cert.Spec (headOf laneOf col colQ colK colV wqkvT)

/-
  The host operations between the three block computations, read entry by entry, for any contents `W` of the
  core's arrays when a stretch starts.

  Before stage 0: the three weights stacked along the rows, transposed and recast — entry (k, j) of the
  256×768 matrix is row j of the first weight, row j − 256 of the second or row j − 512 of the third, at
  column k. Before stage 1: the three column slices of stage 0's result, each reshaped to [4096, 8, 32] and
  transposed to [8, 4096, 32] — entry (h, n, d) is row n, column 32 h + d of the slice. Before stage 2: the
  heads transposed back and merged (column k of row n is head k / 32, lane k % 32), the last weight
  transposed and recast, and the bias vector as a one-row matrix. A recast is the identity on extended reals.
-/

variable (W : Valuation τ sig (Elt Ideal))

/-! ## Before stage 0 -/

/-- The stacked, transposed, recast weights at (k, j). -/
theorem host0_v2 (k : Fin 256) (j : Fin 768) :
    (StableHlo.after (hostOps0 (F := Ideal)) W (Proc.devRef .tc main_v2) : S256x768.Idx → EReal) (ix2 k j)
      = wqkvT (W (Proc.devRef .tc main_arg1)) (W (Proc.devRef .tc main_arg2)) (W (Proc.devRef .tc main_arg3)) (ix2 k j) := by
  after_results
  show transpose S256x768 [1, 0]
      (concatenate S768x256 0 [⟨S256x256, W (Proc.devRef .tc main_arg1)⟩, ⟨S256x256, W (Proc.devRef .tc main_arg2)⟩,
          ⟨S256x256, W (Proc.devRef .tc main_arg3)⟩] concatenates_S256x256_S256x256_S256x256_S768x256_d0)
      transposes_S768x256_S256x768_1_0 (ix2 k j) = _
  refine (transpose_apply [1, 0] _ _ (ix2 k j) (ix2 j k) (fun b =>
    match b with
    | ⟨0, _⟩ => rfl
    | ⟨1, _⟩ => rfl)).trans ?_
  have hj : j.val < 768 := j.isLt
  unfold wqkvT
  split
  · next h1 =>
    have h1' : j.val < 256 := h1
    exact concatenate_apply_piece 0 _ _ (ix2 j k) 0 (by show 0 < 3; decide) S256x256 (W (Proc.devRef .tc main_arg1)) rfl rfl 0 rfl
      (ix2 ⟨j.val, h1'⟩ k)
      (fun b => match b with
        | ⟨0, _⟩ => fun hb => absurd rfl hb
        | ⟨1, _⟩ => fun _ => rfl)
      (Nat.zero_add _)
  · next h1 =>
    have h1' : ¬ j.val < 256 := h1
    split
    · next h2 =>
      have h2' : j.val < 512 := h2
      exact concatenate_apply_piece 0 _ _ (ix2 j k) 1 (by show 1 < 3; decide) S256x256 (W (Proc.devRef .tc main_arg2)) rfl rfl 256 rfl
        (ix2 ⟨j.val - 256, by omega⟩ k)
        (fun b => match b with
          | ⟨0, _⟩ => fun hb => absurd rfl hb
          | ⟨1, _⟩ => fun _ => rfl)
        (by show 256 + (j.val - 256) = j.val; omega)
    · next h2 =>
      have h2' : ¬ j.val < 512 := h2
      exact concatenate_apply_piece 0 _ _ (ix2 j k) 2 (by show 2 < 3; decide) S256x256 (W (Proc.devRef .tc main_arg3)) rfl rfl 512 rfl
        (ix2 ⟨j.val - 512, by omega⟩ k)
        (fun b => match b with
          | ⟨0, _⟩ => fun hb => absurd rfl hb
          | ⟨1, _⟩ => fun _ => rfl)
        (by show 512 + (j.val - 512) = j.val; omega)

/-! ## Before stage 1 -/

/-- Row-major position of (n, h, d) in [4096, 8, 32] is that of (n, 32 h + d) in [4096, 256]. -/
theorem split_pos (h : Fin 8) (n : Fin 4096) (d : Fin 32) :
    n.val * 256 + (h.val * 32 + d.val) = (n.val * 8 + h.val) * 32 + d.val := by
  omega

/-- Head h, row n, lane d of the first slice. -/
theorem host1_v8 (h : Fin 8) (n : Fin 4096) (d : Fin 32) :
    (StableHlo.after (hostOps1 (F := Ideal)) W (Proc.devRef .tc main_v8) : S8x4096x32.Idx → EReal) (ix3 h n d)
      = (W (Proc.devRef .tc main_v3) : S4096x768.Idx → EReal) (ix2 n (colQ (col h d))) := by
  after_results
  show transpose S8x4096x32 [1, 0, 2]
      (shapeCast S4096x8x32 (extractStridedSlice S4096x256 ![0, 0] (W (Proc.devRef .tc main_v3)) slices_S4096x768_S4096x256_0_0)
        shapeCasts_S4096x256_S4096x8x32) transposes_S4096x8x32_S8x4096x32_1_0_2 (ix3 h n d) = _
  refine (transpose_apply [1, 0, 2] _ _ (ix3 h n d) (ix3 n h d) (fun b =>
    match b with
    | ⟨0, _⟩ => rfl
    | ⟨1, _⟩ => rfl
    | ⟨2, _⟩ => rfl)).trans ?_
  refine (shapeCast_apply _ _ (ix3 n h d) (ix2 n (col h d)) ?_).trans ?_
  · rw [Shape.rowMajor_val_two, Shape.rowMajor_val_three]
    exact split_pos h n d
  · exact extractStridedSlice_apply ![0, 0] _ _ (ix2 n (col h d)) (ix2 n (colQ (col h d))) (fun a =>
      match a with
      | ⟨0, _⟩ => (Nat.zero_add _).symm
      | ⟨1, _⟩ => (Nat.zero_add _).symm)

/-- Head h, row n, lane d of the second slice. -/
theorem host1_v10 (h : Fin 8) (n : Fin 4096) (d : Fin 32) :
    (StableHlo.after (hostOps1 (F := Ideal)) W (Proc.devRef .tc main_v10) : S8x4096x32.Idx → EReal) (ix3 h n d)
      = (W (Proc.devRef .tc main_v3) : S4096x768.Idx → EReal) (ix2 n (colK (col h d))) := by
  after_results
  show transpose S8x4096x32 [1, 0, 2]
      (shapeCast S4096x8x32 (extractStridedSlice S4096x256 ![0, 256] (W (Proc.devRef .tc main_v3)) slices_S4096x768_S4096x256_0_256)
        shapeCasts_S4096x256_S4096x8x32) transposes_S4096x8x32_S8x4096x32_1_0_2 (ix3 h n d) = _
  refine (transpose_apply [1, 0, 2] _ _ (ix3 h n d) (ix3 n h d) (fun b =>
    match b with
    | ⟨0, _⟩ => rfl
    | ⟨1, _⟩ => rfl
    | ⟨2, _⟩ => rfl)).trans ?_
  refine (shapeCast_apply _ _ (ix3 n h d) (ix2 n (col h d)) ?_).trans ?_
  · rw [Shape.rowMajor_val_two, Shape.rowMajor_val_three]
    exact split_pos h n d
  · exact extractStridedSlice_apply ![0, 256] _ _ (ix2 n (col h d)) (ix2 n (colK (col h d))) (fun a =>
      match a with
      | ⟨0, _⟩ => (Nat.zero_add _).symm
      | ⟨1, _⟩ => rfl)

/-- Head h, row n, lane d of the third slice. -/
theorem host1_v12 (h : Fin 8) (n : Fin 4096) (d : Fin 32) :
    (StableHlo.after (hostOps1 (F := Ideal)) W (Proc.devRef .tc main_v12) : S8x4096x32.Idx → EReal) (ix3 h n d)
      = (W (Proc.devRef .tc main_v3) : S4096x768.Idx → EReal) (ix2 n (colV (col h d))) := by
  after_results
  show transpose S8x4096x32 [1, 0, 2]
      (shapeCast S4096x8x32 (extractStridedSlice S4096x256 ![0, 512] (W (Proc.devRef .tc main_v3)) slices_S4096x768_S4096x256_0_512)
        shapeCasts_S4096x256_S4096x8x32) transposes_S4096x8x32_S8x4096x32_1_0_2 (ix3 h n d) = _
  refine (transpose_apply [1, 0, 2] _ _ (ix3 h n d) (ix3 n h d) (fun b =>
    match b with
    | ⟨0, _⟩ => rfl
    | ⟨1, _⟩ => rfl
    | ⟨2, _⟩ => rfl)).trans ?_
  refine (shapeCast_apply _ _ (ix3 n h d) (ix2 n (col h d)) ?_).trans ?_
  · rw [Shape.rowMajor_val_two, Shape.rowMajor_val_three]
    exact split_pos h n d
  · exact extractStridedSlice_apply ![0, 512] _ _ (ix2 n (col h d)) (ix2 n (colV (col h d))) (fun a =>
      match a with
      | ⟨0, _⟩ => (Nat.zero_add _).symm
      | ⟨1, _⟩ => rfl)

/-! ## Before stage 2 -/

/-- Row-major position of (n, k) in [4096, 256] is that of (n, k / 32, k % 32) in [4096, 8, 32]. -/
theorem merge_pos (n : Fin 4096) (k : Fin 256) :
    (n.val * 8 + k.val / 32) * 32 + k.val % 32 = n.val * 256 + k.val := by
  omega

/-- The heads laid side by side at (n, k). -/
theorem host2_v15 (n : Fin 4096) (k : Fin 256) :
    (StableHlo.after (hostOps2 (F := Ideal)) W (Proc.devRef .tc main_v15) : S4096x256.Idx → EReal) (ix2 n k)
      = (W (Proc.devRef .tc main_v13) : S8x4096x32.Idx → EReal) (ix3 (headOf k) n (laneOf k)) := by
  after_results
  show shapeCast S4096x256 (transpose S4096x8x32 [1, 0, 2] (W (Proc.devRef .tc main_v13)) transposes_S8x4096x32_S4096x8x32_1_0_2)
      shapeCasts_S4096x8x32_S4096x256 (ix2 n k) = _
  refine (shapeCast_apply _ _ (ix2 n k) (ix3 n (headOf k) (laneOf k)) ?_).trans ?_
  · rw [Shape.rowMajor_val_three, Shape.rowMajor_val_two]
    exact merge_pos n k
  · exact transpose_apply [1, 0, 2] _ _ (ix3 n (headOf k) (laneOf k)) (ix3 (headOf k) n (laneOf k)) (fun b =>
      match b with
      | ⟨0, _⟩ => rfl
      | ⟨1, _⟩ => rfl
      | ⟨2, _⟩ => rfl)

/-- The last weight transposed (and recast) at (k, j). -/
theorem host2_v17 (k j : Fin 256) :
    (StableHlo.after (hostOps2 (F := Ideal)) W (Proc.devRef .tc main_v17) : S256x256.Idx → EReal) (ix2 k j)
      = (W (Proc.devRef .tc main_arg4) : S256x256.Idx → EReal) (ix2 j k) := by
  after_results
  show transpose S256x256 [1, 0] (W (Proc.devRef .tc main_arg4)) transposes_S256x256_S256x256_1_0 (ix2 k j) = _
  exact transpose_apply [1, 0] _ _ (ix2 k j) (ix2 j k) (fun b =>
    match b with
    | ⟨0, _⟩ => rfl
    | ⟨1, _⟩ => rfl)

/-- The bias as a one-row matrix at (0, j). -/
theorem host2_v18 (j : Fin 256) :
    (StableHlo.after (hostOps2 (F := Ideal)) W (Proc.devRef .tc main_v18) : S1x256.Idx → EReal) (ix2 (0 : Fin 1) j)
      = (W (Proc.devRef .tc main_arg5) : S256.Idx → EReal) (ix1 j) := by
  after_results
  show shapeCast S1x256 (W (Proc.devRef .tc main_arg5)) shapeCasts_S256_S1x256 (ix2 (0 : Fin 1) j) = _
  refine shapeCast_apply _ _ (ix2 (0 : Fin 1) j) (ix1 j) ?_
  rw [Shape.rowMajor_val_one, Shape.rowMajor_val_two]
  show j.val = 0 * 256 + j.val
  omega

end Cert.KernelIdeal.Glue

end
-- ==== Proof.Asm.lean ====
/-
  What the idealized kernel program leaves in its result array, as a function of the launch arguments.

  The contents of the core's buffers at the six boundaries are a fold from the launch memory. Walking that fold
  backwards from the result: stage 2's output array is G2 of its three input arrays; those are what the third host
  stretch made of stage 1's output array, the last weight matrix and the bias; stage 1's output is G1 of the three
  head arrays, which the second host stretch cut out of stage 0's output; stage 0's output is G0 of the input and
  the stacked, transposed weights the first host stretch built. The composition law then says the whole is the
  specification.
-/
import proofs.«130410_j11501922419472_2_alg».proof.Proof.FrameRun
import proofs.«130410_j11501922419472_2_alg».proof.Proof.ValR0
import proofs.«130410_j11501922419472_2_alg».proof.Proof.ValR1Acc
import proofs.«130410_j11501922419472_2_alg».proof.Proof.ValR1Final
import proofs.«130410_j11501922419472_2_alg».proof.Proof.ValR2
import proofs.«130410_j11501922419472_2_alg».proof.Proof.Glue
import proofs.«130410_j11501922419472_2_alg».proof.Proof.GlueMath

set_option maxRecDepth 16384

noncomputable section

namespace Cert.KernelIdeal.Asm

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first host stretch writes no argument. -/
theorem W1_arg (c : Dev nD) (a : Ref sig .tc) (ha : a ∉ hostOps0_W) :
    W1 m ρ c (Proc.devRef .tc a) = m ((c : Thread nD τ).loc a) :=
  (StableHlo.after_of_writes_sub hostOps0 _ hostOps0_writes ha).trans rfl

/-- The last weight matrix and the bias are still as launched when the third host stretch reads them. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = m ((c : Thread nD τ).loc main_arg4) := W1_arg m ρ c main_arg4 (by decide)
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = m ((c : Thread nD τ).loc main_arg5) := W1_arg m ρ c main_arg5 (by decide)

/-- Stage 0's output array after its pipeline. -/
theorem W2_v3 (c : Dev nD) :
    (W2 m ρ c (Proc.devRef .tc main_v3) : S4096x768.Idx → EReal) = Cert.Spec.G0 (m ((c : Thread nD τ).loc main_arg0)) (V1 m ρ c main_v2) := by
  have e : W2 m ρ c (Proc.devRef .tc main_v3) = (dat0 (V1 m ρ) c).arrAt 2 cfg0.N := W2_arr m ρ c 2
  rw [e, Cert.KernelIdeal.Val.final0 (V1 m ρ) c]
  exact congrArg (fun x => Cert.Spec.G0 x (V1 m ρ c main_v2)) (W1_arg m ρ c main_arg0 (by decide))

/-- Stage 1's output array after its pipeline. -/
theorem W4_v13 (c : Dev nD) :
    (W4 m ρ c (Proc.devRef .tc main_v13) : S8x4096x32.Idx → EReal) = Cert.Spec.G1 (V3 m ρ c main_v8) (V3 m ρ c main_v10) (V3 m ρ c main_v12) := by
  have e : W4 m ρ c (Proc.devRef .tc main_v13) = (dat1 (V3 m ρ) c).arrAt 3 cfg1.N := W4_arr m ρ c 3
  rw [e]
  exact Cert.KernelIdeal.Val.final1_of Cert.KernelIdeal.Val.out1_3_apply (V3 m ρ) c

/-- THE RESULT: the program's result array ends at the specification of the launch arguments. -/
theorem v19_eq (c : Dev nD) :
    (W6 m ρ c (Proc.devRef .tc main_v19) : S4096x256.Idx → EReal)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : W6 m ρ c (Proc.devRef .tc main_v19) = (dat2 (V5 m ρ) c).arrAt 3 cfg2.N := W6_arr m ρ c 3
  rw [e, Cert.KernelIdeal.Val.final2 (V5 m ρ) c]
  refine Cert.Spec.compose _ _ _ _ _ _ (V1 m ρ c main_v2) ?hWt (V3 m ρ c main_v8) (V3 m ρ c main_v10) (V3 m ρ c main_v12) ?hQ ?hK ?hV
    (V5 m ρ c main_v15) ?hA (V5 m ρ c main_v17) ?hWfT (V5 m ρ c main_v18) ?hb
  case hWt =>
    intro k j
    refine (Cert.KernelIdeal.Glue.host0_v2 (W := W0 m ρ c) k j).trans ?_
    rfl
  case hQ =>
    intro h n d
    refine (Cert.KernelIdeal.Glue.host1_v8 (W := W2 m ρ c) h n d).trans ?_
    exact congrFun (W2_v3 m ρ c) _
  case hK =>
    intro h n d
    refine (Cert.KernelIdeal.Glue.host1_v10 (W := W2 m ρ c) h n d).trans ?_
    exact congrFun (W2_v3 m ρ c) _
  case hV =>
    intro h n d
    refine (Cert.KernelIdeal.Glue.host1_v12 (W := W2 m ρ c) h n d).trans ?_
    exact congrFun (W2_v3 m ρ c) _
  case hA =>
    intro n k
    refine (Cert.KernelIdeal.Glue.host2_v15 (W := W4 m ρ c) n k).trans ?_
    exact congrFun (W4_v13 m ρ c) _
  case hWfT =>
    intro k j
    refine (Cert.KernelIdeal.Glue.host2_v17 (W := W4 m ρ c) k j).trans ?_
    exact congrFun (W4_main_arg4 m ρ c) _
  case hb =>
    intro j
    refine (Cert.KernelIdeal.Glue.host2_v18 (W := W4 m ρ c) j).trans ?_
    exact congrFun (W4_main_arg5 m ρ c) _

end Cert.KernelIdeal.Asm

end
-- ==== Proof.RefSide.lean ====
import proofs.«130410_j11501922419472_2_alg».proof.Proof.Gen.ReferenceIdeal.Read
import proofs.«130410_j11501922419472_2_alg».proof.Proof.Spec

/-
  The reference program computes the specification, entry by entry.

  Each of its three projections is x · Wᵀ; the reshape [4096,256] → [4096,8,32] followed by the transpose
  [1,0,2] puts column 32 h + d of row n at (h, n, d); the two batched contractions are the scores and the
  attention sums; the transpose and reshape back put (h, n, d) at column 32 h + d of row n, so column k is
  read at head k / 32 and lane k % 32; the last contraction, the broadcast bias row and the maximum with
  the zero constant are the closing affine map and the rectifier.
-/

noncomputable section

open scoped BigOperators

namespace Cert.ReferenceIdeal.RefValue

open Cert.ReferenceIdeal Cert.ReferenceIdeal.Read Idealize.ShloMosaic Idealize.ShloMosaic.ValueIdx Cert.Spec

variable (x0 : (⟨Cert.ReferenceIdeal.S4096x256, .f32⟩ : BufTy).Contents (Elt Ideal))
  (x1 x2 x3 x4 : (⟨Cert.ReferenceIdeal.S256x256, .f32⟩ : BufTy).Contents (Elt Ideal))
  (x5 : (⟨Cert.ReferenceIdeal.S256, .f32⟩ : BufTy).Contents (Elt Ideal))

/-! ## The three projections -/

/-- The first projection at (n, c): row n of x against row c of the weight. -/
theorem v1_at (n : Fin 4096) (c : Fin 256) :
    val_main_v1 (F := Ideal) x0 x1 (ix2 n c) = proj x0 x1 n c := by
  rw [val_main_v1_apply]
  unfold proj
  refine Finset.sum_congr rfl fun k _ => ?_
  rw [val_main_v0_apply]
  have e1 : lidx_main_v1 (ix2 n c) k = ix2 n k :=
    funext fun a => Fin.ext (by match a with | ⟨0, _⟩ => rfl | ⟨1, _⟩ => rfl)
  have e2 : idx_main_v0 (ridx_main_v1 (ix2 n c) k) = ix2 c k :=
    funext fun a => Fin.ext (by match a with | ⟨0, _⟩ => rfl | ⟨1, _⟩ => rfl)
  rw [e1, e2]

/-- The second projection at (n, c). -/
theorem v5_at (n : Fin 4096) (c : Fin 256) :
    val_main_v5 (F := Ideal) x0 x2 (ix2 n c) = proj x0 x2 n c := by
  rw [val_main_v5_apply]
  unfold proj
  refine Finset.sum_congr rfl fun k _ => ?_
  rw [val_main_v4_apply]
  have e1 : lidx_main_v5 (ix2 n c) k = ix2 n k :=
    funext fun a => Fin.ext (by match a with | ⟨0, _⟩ => rfl | ⟨1, _⟩ => rfl)
  have e2 : idx_main_v4 (ridx_main_v5 (ix2 n c) k) = ix2 c k :=
    funext fun a => Fin.ext (by match a with | ⟨0, _⟩ => rfl | ⟨1, _⟩ => rfl)
  rw [e1, e2]

/-- The third projection at (n, c). -/
theorem v9_at (n : Fin 4096) (c : Fin 256) :
    val_main_v9 (F := Ideal) x0 x3 (ix2 n c) = proj x0 x3 n c := by
  rw [val_main_v9_apply]
  unfold proj
  refine Finset.sum_congr rfl fun k _ => ?_
  rw [val_main_v8_apply]
  have e1 : lidx_main_v9 (ix2 n c) k = ix2 n k :=
    funext fun a => Fin.ext (by match a with | ⟨0, _⟩ => rfl | ⟨1, _⟩ => rfl)
  have e2 : idx_main_v8 (ridx_main_v9 (ix2 n c) k) = ix2 c k :=
    funext fun a => Fin.ext (by match a with | ⟨0, _⟩ => rfl | ⟨1, _⟩ => rfl)
  rw [e1, e2]

/-! ## Cutting into heads: entry (h, n, d) is column 32 h + d of row n -/

/-- Row-major position ((n · 8 + h) · 32 + d) of the [4096,8,32] array is row n, column 32 h + d of the matrix. -/
theorem head_pos (h : Fin 8) (n : Fin 4096) (d : Fin 32) :
    ((n.val * 8 + h.val) * 32 + d.val) / 256 = n.val ∧
      ((n.val * 8 + h.val) * 32 + d.val) % 256 = h.val * 32 + d.val := by
  have hh := h.isLt; have hn := n.isLt; have hd := d.isLt
  constructor <;> omega

theorem v3_at (h : Fin 8) (n : Fin 4096) (d : Fin 32) :
    val_main_v3 (F := Ideal) x0 x1 (ix3 h n d) = proj x0 x1 n (col h d) := by
  rw [val_main_v3_apply, val_main_v2_apply]
  have e : idx_main_v2 (idx_main_v3 (ix3 h n d)) = ix2 n (col h d) :=
    funext fun a => Fin.ext (by
      match a with
      | ⟨0, _⟩ => exact (head_pos h n d).1
      | ⟨1, _⟩ => exact (head_pos h n d).2)
  rw [e, v1_at]

theorem v7_at (h : Fin 8) (n : Fin 4096) (d : Fin 32) :
    val_main_v7 (F := Ideal) x0 x2 (ix3 h n d) = proj x0 x2 n (col h d) := by
  rw [val_main_v7_apply, val_main_v6_apply]
  have e : idx_main_v6 (idx_main_v7 (ix3 h n d)) = ix2 n (col h d) :=
    funext fun a => Fin.ext (by
      match a with
      | ⟨0, _⟩ => exact (head_pos h n d).1
      | ⟨1, _⟩ => exact (head_pos h n d).2)
  rw [e, v5_at]

theorem v11_at (h : Fin 8) (n : Fin 4096) (d : Fin 32) :
    val_main_v11 (F := Ideal) x0 x3 (ix3 h n d) = proj x0 x3 n (col h d) := by
  rw [val_main_v11_apply, val_main_v10_apply]
  have e : idx_main_v10 (idx_main_v11 (ix3 h n d)) = ix2 n (col h d) :=
    funext fun a => Fin.ext (by
      match a with
      | ⟨0, _⟩ => exact (head_pos h n d).1
      | ⟨1, _⟩ => exact (head_pos h n d).2)
  rw [e, v9_at]

/-! ## Scores and attention sums -/

/-- The score array at (h, n, m). -/
theorem v13_at (h : Fin 8) (n m : Fin 4096) :
    val_main_v13 (F := Ideal) x0 x1 x2 (ix3 h n m) = score x0 x1 x2 h n m := by
  rw [val_main_v13_apply, val_main_v12_apply, Ideal.hostUnary_tanh_def]
  unfold score
  refine congrArg Ideal.tanh (Finset.sum_congr rfl fun e _ => ?_)
  have e1 : lidx_main_v12 (ix3 h n m) e = ix3 h n e :=
    funext fun a => Fin.ext (by match a with | ⟨0, _⟩ => rfl | ⟨1, _⟩ => rfl | ⟨2, _⟩ => rfl)
  have e2 : ridx_main_v12 (ix3 h n m) e = ix3 h m e :=
    funext fun a => Fin.ext (by match a with | ⟨0, _⟩ => rfl | ⟨1, _⟩ => rfl | ⟨2, _⟩ => rfl)
  rw [e1, e2, v3_at, v7_at]

/-- The attention array at (h, n, d). -/
theorem v14_at (h : Fin 8) (n : Fin 4096) (d : Fin 32) :
    val_main_v14 (F := Ideal) x0 x1 x2 x3 (ix3 h n d) = att x0 x1 x2 x3 h n d := by
  rw [val_main_v14_apply]
  unfold att
  refine Finset.sum_congr rfl fun m _ => ?_
  have e1 : lidx_main_v14 (ix3 h n d) m = ix3 h n m :=
    funext fun a => Fin.ext (by match a with | ⟨0, _⟩ => rfl | ⟨1, _⟩ => rfl | ⟨2, _⟩ => rfl)
  have e2 : ridx_main_v14 (ix3 h n d) m = ix3 h m d :=
    funext fun a => Fin.ext (by match a with | ⟨0, _⟩ => rfl | ⟨1, _⟩ => rfl | ⟨2, _⟩ => rfl)
  rw [e1, e2, v13_at, v11_at]

/-! ## Laying the heads side by side: column k is head k / 32, lane k % 32 -/

theorem lane_pos (n : Fin 4096) (k : Fin 256) :
    (n.val * 256 + k.val) / 256 = n.val ∧ (n.val * 256 + k.val) / 32 % 8 = k.val / 32 ∧
      (n.val * 256 + k.val) % 32 = k.val % 32 := by
  have hn := n.isLt; have hk := k.isLt
  refine ⟨?_, ?_, ?_⟩ <;> omega

theorem v16_at (n : Fin 4096) (k : Fin 256) :
    val_main_v16 (F := Ideal) x0 x1 x2 x3 (ix2 n k) = att x0 x1 x2 x3 (headOf k) n (laneOf k) := by
  rw [val_main_v16_apply, val_main_v15_apply]
  have e : idx_main_v15 (idx_main_v16 (ix2 n k)) = ix3 (headOf k) n (laneOf k) :=
    funext fun a => Fin.ext (by
      match a with
      | ⟨0, _⟩ => exact (lane_pos n k).2.1
      | ⟨1, _⟩ => exact (lane_pos n k).1
      | ⟨2, _⟩ => exact (lane_pos n k).2.2)
  rw [e, v14_at]

/-! ## The closing affine map and the rectifier -/

theorem ref_is_spec :
    Cert.ReferenceIdeal.Read.val_main_v22 (F := Ideal) x0 x1 x2 x3 x4 x5 = Cert.Spec.out x0 x1 x2 x3 x4 x5 := by
  funext i
  obtain ⟨n, j, rfl⟩ : ∃ (n : Fin 4096) (j : Fin 256), i = ix2 n j := ⟨i 0, i 1, eq_ix2 i⟩
  rw [val_main_v22_apply, val_main_v21_apply, val_main_v18_apply, val_main_v20_apply, val_main_v19_apply,
    val_main_call0_v0_apply, val_main_call0_cst_apply, Ideal.maximumf_def, Ideal.addf_def, Ideal.ofBits_def, Ideal.ofBits_zero_f32]
  show _ = max (∑ k : Fin 256, att x0 x1 x2 x3 (headOf k) n (laneOf k) * x4 (ix2 j k) + x5 (ix1 j)) 0
  have eb : idx_main_v19 (idx_main_v20 (ix2 n j)) = ix1 j :=
    funext fun a => Fin.ext (by match a with | ⟨0, _⟩ => rfl)
  rw [eb]
  refine congrArg (fun s => max (s + x5 (ix1 j)) 0) (Finset.sum_congr rfl fun k _ => ?_)
  rw [val_main_v17_apply]
  have e1 : lidx_main_v18 (ix2 n j) k = ix2 n k :=
    funext fun a => Fin.ext (by match a with | ⟨0, _⟩ => rfl | ⟨1, _⟩ => rfl)
  have e2 : idx_main_v17 (ridx_main_v18 (ix2 n j) k) = ix2 j k :=
    funext fun a => Fin.ext (by match a with | ⟨0, _⟩ => rfl | ⟨1, _⟩ => rfl)
  rw [e1, e2, v16_at]

end Cert.ReferenceIdeal.RefValue

end
-- ==== Proof.Claims.lean ====
/-
  The two remaining claims. The idealization rewrote nothing, so the preservation claim is trivial. For the
  algebraic claim both programs are run from memories that agree on the six arguments: the kernel program ends with
  its result array at the specification of those arguments (the fold through its six items), the reference with its
  result at the same specification (its operations read one at a time), and the first result, the input itself, is
  returned untouched by both.
-/
import proofs.«130410_j11501922419472_2_alg».proof.Proof.Frames
import proofs.«130410_j11501922419472_2_alg».proof.Proof.Asm
import proofs.«130410_j11501922419472_2_alg».proof.Proof.RefSide

noncomputable section

open Idealize.ShloMosaic Idealize.ShloMosaic.TcCoe Idealize.SL.Sem

namespace Cert.Proof.Claims

theorem preserves : Cert.preserves_Kernel_KernelIdeal := trivial

theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono ?_ (Cert.Proof.Frames.run_ki (F := Ideal) m ρ)
    intro r h c
    exact ⟨(h c _ (Cert.KernelIdeal.Fr.mem_uc Cert.KernelIdeal.main_arg0 (by decide))).trans (Cert.KernelIdeal.Fr.W6_main_arg0 m ρ c),
      (h c _ (Cert.KernelIdeal.Fr.mem_uc Cert.KernelIdeal.main_v19 (by decide))).trans (Cert.KernelIdeal.Asm.v19_eq m ρ c),
      (h c _ (Cert.KernelIdeal.Fr.mem_uc Cert.KernelIdeal.main_arg0 (by decide))).trans (Cert.KernelIdeal.Fr.W6_main_arg0 m ρ c),
      (h c _ (Cert.KernelIdeal.Fr.mem_uc Cert.KernelIdeal.main_arg1 (by decide))).trans (Cert.KernelIdeal.Fr.W6_main_arg1 m ρ c),
      (h c _ (Cert.KernelIdeal.Fr.mem_uc Cert.KernelIdeal.main_arg2 (by decide))).trans (Cert.KernelIdeal.Fr.W6_main_arg2 m ρ c),
      (h c _ (Cert.KernelIdeal.Fr.mem_uc Cert.KernelIdeal.main_arg3 (by decide))).trans (Cert.KernelIdeal.Fr.W6_main_arg3 m ρ c),
      (h c _ (Cert.KernelIdeal.Fr.mem_uc Cert.KernelIdeal.main_arg4 (by decide))).trans (Cert.KernelIdeal.Fr.W6_main_arg4 m ρ c),
      (h c _ (Cert.KernelIdeal.Fr.mem_uc Cert.KernelIdeal.main_arg5 (by decide))).trans (Cert.KernelIdeal.Fr.W6_main_arg5 m ρ c)⟩
  · refine (θ_run Cert.ReferenceIdeal.defs _ _).mono ?_ (Cert.ReferenceIdeal.Value.run (F := Ideal) m' ρ')
    intro r h c
    refine ⟨(h c).1.trans (hagree c).1, ?_, (h c).2.2⟩
    rw [(h c).2.1, Cert.ReferenceIdeal.Read.val_main_v22_eq, Cert.ReferenceIdeal.RefValue.ref_is_spec,
      (hagree c).1, (hagree c).2.1, (hagree c).2.2.1, (hagree c).2.2.2.1, (hagree c).2.2.2.2.1, (hagree c).2.2.2.2.2]

end Cert.Proof.Claims

end
-- ==== Proof.lean ====
/-
  The certificate's claim: the word-level kernel program, its idealization and the idealized reference each run
  to the end without a fault and leave their arguments unchanged; the idealization rewrote nothing; and at the
  ideal instance, where floats are extended reals and every operation is exact, the kernel program and the
  reference return the same two arrays from memories that agree on the arguments. The kernel program projects the
  input three times at once against the stacked weights, forms per head tanh(q · kᵀ) · v over sixteen stretches
  of 256 keys accumulated in turn, and applies a last affine map and a maximum with zero, each stage in blocks
  of rows; the reference does the same in one piece. The two agree because a sum over 4096 keys is the sum of
  its sixteen stretches, a column of a product against stacked weights is the product against one of them, and
  blocks of rows of a product are products of blocks of rows: only regrouping of finite sums, so the inputs'
  finiteness is never used.
-/
import proofs.«130410_j11501922419472_2_alg».proof.Defs
import proofs.«130410_j11501922419472_2_alg».proof.Proof.Gen.Kernel
import proofs.«130410_j11501922419472_2_alg».proof.Proof.Gen.KernelIdeal
import proofs.«130410_j11501922419472_2_alg».proof.Proof.Gen.ReferenceIdeal
import proofs.«130410_j11501922419472_2_alg».proof.Proof.Gen.Pre_finite_inputs
import proofs.«130410_j11501922419472_2_alg».proof.Proof.Frames
import proofs.«130410_j11501922419472_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, Cert.Proof.Claims.preserves, Cert.Proof.Claims.algebraic⟩

end Cert.Proof

end
